-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S128 .f32) (main_arg13 : FVec F S128 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg14
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128 .f32) (main_arg11 : FVec F S128 .f32) (main_arg12 : FVec F S128 .f32) (main_arg13 : FVec F S128 .f32) (main_arg14 : FVec F S128x64 .f32) (main_arg15 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 122
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128x64, .f32⟩
  | .hbm, ⟨15, _⟩ => ⟨S64, .f32⟩
  | .hbm, ⟨16, _⟩ => ⟨S100000, .i32⟩
  | .hbm, ⟨17, _⟩ => ⟨S1x1600000, .i32⟩
  | .hbm, ⟨18, _⟩ => ⟨S1600000, .i32⟩
  | .hbm, ⟨19, _⟩ => ⟨S1700000, .i32⟩
  | .hbm, ⟨20, _⟩ => ⟨S1x1600000, .i32⟩
  | .hbm, ⟨21, _⟩ => ⟨S1600000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000, .f32⟩
  | .hbm, ⟨56, _⟩ => ⟨S1700000, .f32⟩
  | .hbm, ⟨57, _⟩ => ⟨S100000x128, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .f32⟩
  | .hbm, ⟨67, _⟩ => ⟨S1700000x1, .f32⟩
  | .hbm, ⟨68, _⟩ => ⟨S1700000x128, .f32⟩
  | .hbm, ⟨69, _⟩ => ⟨S1700000x128, .f32⟩
  | .hbm, ⟨70, _⟩ => ⟨S_, .f32⟩
  | .hbm, ⟨71, _⟩ => ⟨S100000x128, .f32⟩
  | .hbm, ⟨72, _⟩ => ⟨S1700000x1, .i32⟩
  | .hbm, ⟨73, _⟩ => ⟨S100000x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x1, .f32⟩
  | .hbm, ⟨91, _⟩ => ⟨S1700000x128, .f32⟩
  | .hbm, ⟨92, _⟩ => ⟨S1700000x128, .f32⟩
  | .hbm, ⟨93, _⟩ => ⟨S_, .f32⟩
  | .hbm, ⟨94, _⟩ => ⟨S100000x128, .f32⟩
  | .hbm, ⟨95, _⟩ => ⟨S1700000x1, .i32⟩
  | .hbm, ⟨96, _⟩ => ⟨S100000x128, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S1x128, .f32⟩
  | .hbm, ⟨101, _⟩ => ⟨S1x128, .f32⟩
  | .hbm, ⟨102, _⟩ => ⟨S100000x128, .f32⟩
  | .hbm, ⟨103, _⟩ => ⟨S100000x64, .f32⟩
  | .hbm, ⟨104, _⟩ => ⟨S_, .i32⟩
  | .hbm, ⟨105, _⟩ => ⟨S1700000, .i32⟩
  | .hbm, ⟨106, _⟩ => ⟨S1700000, .i1⟩
  | .hbm, ⟨107, _⟩ => ⟨S_, .i32⟩
  | .hbm, ⟨108, _⟩ => ⟨S1700000, .i32⟩
  | .hbm, ⟨109, _⟩ => ⟨S1700000, .i32⟩
  | .hbm, ⟨110, _⟩ => ⟨S1700000, .i32⟩
  | .hbm, ⟨111, _⟩ => ⟨S1700000x1, .i32⟩
  | .hbm, ⟨112, _⟩ => ⟨S1700000x64, .f32⟩
  | .hbm, ⟨113, _⟩ => ⟨S1700000x1, .f32⟩
  | .hbm, ⟨114, _⟩ => ⟨S1700000x64, .f32⟩
  | .hbm, ⟨115, _⟩ => ⟨S1700000x64, .f32⟩
  | .hbm, ⟨116, _⟩ => ⟨S_, .f32⟩
  | .hbm, ⟨117, _⟩ => ⟨S100000x64, .f32⟩
  | .hbm, ⟨118, _⟩ => ⟨S1700000x1, .i32⟩
  | .hbm, ⟨119, _⟩ => ⟨S100000x64, .f32⟩
  | .hbm, ⟨120, _⟩ => ⟨S1x64, .f32⟩
  | .hbm, ⟨121, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S1x64, .f32⟩
  | .local _ .vmem, ⟨36, _⟩ => ⟨S10000x64, .f32⟩
  | .local _ .vmem, ⟨37, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_9 : Ref sig .tc := ⟨.hbm, 81, rfl⟩
abbrev main_v52 : Ref sig .tc := ⟨.hbm, 82, rfl⟩
abbrev main_v53 : Ref sig .tc := ⟨.hbm, 83, rfl⟩
abbrev main_c_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_12 : Ref sig .tc := ⟨.hbm, 104, rfl⟩
abbrev main_v72 : Ref sig .tc := ⟨.hbm, 105, rfl⟩
abbrev main_v73 : Ref sig .tc := ⟨.hbm, 106, rfl⟩
abbrev main_c_13 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S100000x128.size a
  hwx3_6 : ∀ i : grid3.Coords, EltTy.bits .f32 = 32 ∨ (Rect.block (s := S100000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v70) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v70) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v85) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128, .f32⟩
  | 11 => ⟨S128, .f32⟩
  | 12 => ⟨S128, .f32⟩
  | 13 => ⟨S128, .f32⟩
  | 14 => ⟨S128x64, .f32⟩
  | 15 => ⟨S64, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x128, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x1, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S128, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S100000x64, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000x64, .f32⟩
  | 13 => ⟨S1700000x1, .f32⟩
  | 14 => ⟨S1700000x64, .f32⟩
  | 15 => ⟨S1700000x64, .f32⟩
  | 16 => ⟨S_, .f32⟩
  | 17 => ⟨S100000x64, .f32⟩
  | 18 => ⟨S1700000x1, .i32⟩
  | 19 => ⟨S100000x64, .f32⟩
  | 20 => ⟨S1x64, .f32⟩
  | 21 => ⟨S100000x64, .f32⟩
  | 22 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_c_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_call1_cst : Ref sig .tc := ⟨.hbm, 91, rfl⟩
abbrev main_call1_v0 : Ref sig .tc := ⟨.hbm, 92, rfl⟩
abbrev main_v61 : Ref sig .tc := ⟨.hbm, 93, rfl⟩
abbrev main_v62 : Ref sig .tc := ⟨.hbm, 94, rfl⟩
abbrev main_c_10 : Ref sig .tc := ⟨.hbm, 95, rfl⟩
abbrev main_v63 : Ref sig .tc := ⟨.hbm, 96, rfl⟩
abbrev main_v64 : Ref sig .tc := ⟨.hbm, 97, rfl⟩
abbrev main_c_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_12 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_13 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_call2_cst : Ref sig .tc := ⟨.hbm, 128, rfl⟩
abbrev main_call2_v0 : Ref sig .tc := ⟨.hbm, 129, rfl⟩
abbrev main_v92 : Ref sig .tc := ⟨.hbm, 130, rfl⟩
abbrev main_v93 : Ref sig .tc := ⟨.hbm, 131, rfl⟩
abbrev main_c_14 : Ref sig .tc := ⟨.hbm, 132, rfl⟩
abbrev main_v94 : Ref sig .tc := ⟨.hbm, 133, rfl⟩
abbrev main_v95 : Ref sig .tc := ⟨.hbm, 134, rfl⟩
abbrev main_c_15 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_16 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its result named. The program is six grid regions among stretches of host operations;
  running the segments in order from the launch memory, every weakly fair execution terminates without a fault, and
  in the final memory the result buffer holds what the last segment boundary's contents give it, while the sixteen
  argument arrays are as launched. The contents at each boundary are a fold through the program: a host stretch applies
  its operations, a region replaces its output array by what its write-backs leave.
-/
import proofs.«173730_j47304769798728_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and every argument array as launched. -/
theorem run_result : θ_run defs (onTc (τ := τ) (main (F := F))) ⟨m, fun _ => 0, ρ⟩ (fun r => ∀ c : Dev nD,
      r.2.mem ((c.tc : Thread nD τ).loc main_v86) = W12 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v86 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c)⟩)

end Cert.KernelIdeal.Gen

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Product0.lean ====
/-
  Region 0: a product computed one row block at a time. Each of the ten grid points multiplies a 10000-row block of the
  left array by the whole right array. On the extended reals the change to the narrower float format is the identity and a
  product accumulated into zero is the plain sum over the contracted coordinate, so the entry at row r, column c of a block
  is the sum over k of left (r, k) · right (k, c). The ten blocks written back tile the rows of the result array, which
  therefore ends holding the whole product: the host's dot_general of the two arrays as the region finds them.
-/
import proofs.«173730_j47304769798728_1_alg».proof.Proof.Gen.KernelIdeal.Frame
import proofs.«173730_j47304769798728_1_alg».proof.ReferenceIdeal
import proofs.«173730_j47304769798728_1_alg».proof.Proof.Gen.ReferenceIdeal
import proofs.«173730_j47304769798728_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Product0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin_eq : (![0, 0] : Fin 2 → Nat) = fun _ => 0 := funext fun a => by fin_cases a <;> rfl

/-- An entry of the body's result block: row `j 0` of the left block against column `j 1` of the right one. -/
theorem block_entry (x0 : Vec Ideal S10000x128 .f32) (x1 : Vec Ideal S128x128 .f32) (j : S10000x128.Idx) :
    k0_pay1 (F := Ideal) x0 x1 j = ∑ k : Fin 128, x0 (ix2 (j 0) k) * x1 (ix2 k (j 1)) := by
  unfold k0_pay1
  exact Cert.LibDot.matmul_zero_plain_apply dot_S10000x128_S128x128_S10000x128_1_0_0_1_n_n rfl rfl rfl rfl rfl rfl none _ _ j

/-- The two arrays the region reads, as it finds them. -/
abbrev left (c : Dev nD) : FVec Ideal S100000x128 .f32 := V c main_arg0
abbrev right (c : Dev nD) : FVec Ideal S128x128 .f32 := V c main_arg2

/-- The whole product of the two arrays the region reads, as the host computes it. -/
abbrev whole (c : Dev nD) : FVec Ideal S100000x128 .f32 :=
  Host.dotGeneral (F := Ideal) Cert.ReferenceIdeal.dot_S100000x128_S128x128_S100000x128_1_0_0_1_n_n none (left V c) (right V c)

/-- An entry of the whole product: the same sum over the contracted coordinate. -/
theorem whole_entry (c : Dev nD) (i : S100000x128.Idx) :
    whole V c i = ∑ k : Fin 128, left V c (ix2 (i 0) k) * right V c (ix2 k (i 1)) :=
  Cert.LibDot.dotGeneral_plain_apply Cert.ReferenceIdeal.dot_S100000x128_S128x128_S100000x128_1_0_0_1_n_n rfl rfl rfl rfl rfl rfl none _ (left V c) (right V c) i

/-- The printed index maps over the ten grid points: the left block's row index is the output block's, every column
    index and the right array's block indices are zero, and the output's row index is below ten. -/
theorem index_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some grid point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What grid point `t` writes back is block `t` of the whole product. -/
theorem written_eq (c : Dev nD) (t : Fin cfg0.N) :
    (dat0 (F := Ideal) V c).flushed 2 t = ((cfg0.win 2).blk t).view.read (Elt Ideal) (whole V c) := by
  show (cfg0.win 2).cut (grid0.coords t) ((dat0 V c).after 2 t) = _
  rw [after0_2]
  unfold out0_2
  rw [View.canon_unit_zero origin_eq]
  simp only [View.ld_unit_zero (S := S10000x128) origin_eq, View.ld_unit_zero (S := S128x128) origin_eq]
  obtain ⟨e0, e1, e2, e3, e4, e5⟩ := index_facts t
  funext j
  show k0_pay1 (iblk0 V c 0 t) (iblk0 V c 1 t) j = whole V c (((cfg0.win 2).blk t).view.emb j)
  refine (block_entry _ _ j).trans ((whole_entry V c _).trans ?_).symm
  refine Finset.sum_congr rfl fun k _ => ?_
  have hl : left V c (ix2 ((((cfg0.win 2).blk t).view.emb j) 0) k) = iblk0 V c 0 t (ix2 (j 0) k) := by
    show left V c _ = left V c (((cfg0.win 0).blk t).view.emb (ix2 (j 0) k))
    refine congrArg (left V c) (funext fun a => Fin.ext ?_)
    match a with
    | ⟨0, _⟩ => show win0_2.index t (0 : Fin 2) * 10000 + 1 * (j 0).val = win0_0.index t (0 : Fin 2) * 10000 + 1 * (j 0).val; omega
    | ⟨1, _⟩ => show k.val = win0_0.index t (1 : Fin 2) * 128 + 1 * k.val; omega
  have hr : right V c (ix2 k ((((cfg0.win 2).blk t).view.emb j) 1)) = iblk0 V c 1 t (ix2 k (j 1)) := by
    show right V c _ = right V c (((cfg0.win 1).blk t).view.emb (ix2 k (j 1)))
    refine congrArg (right V c) (funext fun a => Fin.ext ?_)
    match a with
    | ⟨0, _⟩ => show k.val = win0_1.index t (0 : Fin 2) * 128 + 1 * k.val; omega
    | ⟨1, _⟩ => show win0_2.index t (1 : Fin 2) * 128 + 1 * (j 1).val = win0_1.index t (1 : Fin 2) * 128 + 1 * (j 1).val; omega
  rw [hl, hr]

/-- An index of the result array lies in point `t`'s block iff each coordinate lies in the block's range. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- The row blocks tile the result array: row r lies in block r / 10000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the region: the whole product of the two arrays the region read. -/
theorem final (c : Dev nD) : (dat0 (F := Ideal) V c).arrAt 2 cfg0.N = whole V c :=
  (dat0 V c).arrAt_eq_of_cover 2 (whole V c) (fun t _ => written_eq V c t) covered

end Cert.KernelIdeal.Product0

end
-- ==== Proof.Product2.lean ====
/-
  Region 2: a product computed one row block at a time. Each of the ten grid points multiplies a 10000-row block of the
  left array by the whole right array. On the extended reals the change to the narrower float format is the identity and a
  product accumulated into zero is the plain sum over the contracted coordinate, so the entry at row r, column c of a block
  is the sum over k of left (r, k) · right (k, c). The ten blocks written back tile the rows of the result array, which
  therefore ends holding the whole product: the host's dot_general of the two arrays as the region finds them.
-/
import proofs.«173730_j47304769798728_1_alg».proof.Proof.Gen.KernelIdeal.Frame
import proofs.«173730_j47304769798728_1_alg».proof.ReferenceIdeal
import proofs.«173730_j47304769798728_1_alg».proof.Proof.Gen.ReferenceIdeal
import proofs.«173730_j47304769798728_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Product2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin_eq : (![0, 0] : Fin 2 → Nat) = fun _ => 0 := funext fun a => by fin_cases a <;> rfl

/-- An entry of the body's result block: row `j 0` of the left block against column `j 1` of the right one. -/
theorem block_entry (x0 : Vec Ideal S10000x128 .f32) (x1 : Vec Ideal S128x128 .f32) (j : S10000x128.Idx) :
    k2_pay1 (F := Ideal) x0 x1 j = ∑ k : Fin 128, x0 (ix2 (j 0) k) * x1 (ix2 k (j 1)) := by
  unfold k2_pay1
  rw [shapeCast_self]
  exact Cert.LibDot.matmul_zero_plain_apply dot_S10000x128_S128x128_S10000x128_1_0_0_1_n_n rfl rfl rfl rfl rfl rfl none _ _ j

/-- The two arrays the region reads, as it finds them. -/
abbrev left (c : Dev nD) : FVec Ideal S100000x128 .f32 := V c main_v50
abbrev right (c : Dev nD) : FVec Ideal S128x128 .f32 := V c main_arg8

/-- The whole product of the two arrays the region reads, as the host computes it. -/
abbrev whole (c : Dev nD) : FVec Ideal S100000x128 .f32 :=
  Host.dotGeneral (F := Ideal) Cert.ReferenceIdeal.dot_S100000x128_S128x128_S100000x128_1_0_0_1_n_n none (left V c) (right V c)

/-- An entry of the whole product: the same sum over the contracted coordinate. -/
theorem whole_entry (c : Dev nD) (i : S100000x128.Idx) :
    whole V c i = ∑ k : Fin 128, left V c (ix2 (i 0) k) * right V c (ix2 k (i 1)) :=
  Cert.LibDot.dotGeneral_plain_apply Cert.ReferenceIdeal.dot_S100000x128_S128x128_S100000x128_1_0_0_1_n_n rfl rfl rfl rfl rfl rfl none _ (left V c) (right V c) i

/-- The printed index maps over the ten grid points: the left block's row index is the output block's, every column
    index and the right array's block indices are zero, and the output's row index is below ten. -/
theorem index_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some grid point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What grid point `t` writes back is block `t` of the whole product. -/
theorem written_eq (c : Dev nD) (t : Fin cfg2.N) :
    (dat2 (F := Ideal) V c).flushed 2 t = ((cfg2.win 2).blk t).view.read (Elt Ideal) (whole V c) := by
  show (cfg2.win 2).cut (grid2.coords t) ((dat2 V c).after 2 t) = _
  rw [after2_2]
  unfold out2_2
  rw [View.canon_unit_zero origin_eq]
  simp only [View.ld_unit_zero (S := S10000x128) origin_eq, View.ld_unit_zero (S := S128x128) origin_eq]
  obtain ⟨e0, e1, e2, e3, e4, e5⟩ := index_facts t
  funext j
  show k2_pay1 (iblk2 V c 0 t) (iblk2 V c 1 t) j = whole V c (((cfg2.win 2).blk t).view.emb j)
  refine (block_entry _ _ j).trans ((whole_entry V c _).trans ?_).symm
  refine Finset.sum_congr rfl fun k _ => ?_
  have hl : left V c (ix2 ((((cfg2.win 2).blk t).view.emb j) 0) k) = iblk2 V c 0 t (ix2 (j 0) k) := by
    show left V c _ = left V c (((cfg2.win 0).blk t).view.emb (ix2 (j 0) k))
    refine congrArg (left V c) (funext fun a => Fin.ext ?_)
    match a with
    | ⟨0, _⟩ => show win2_2.index t (0 : Fin 2) * 10000 + 1 * (j 0).val = win2_0.index t (0 : Fin 2) * 10000 + 1 * (j 0).val; omega
    | ⟨1, _⟩ => show k.val = win2_0.index t (1 : Fin 2) * 128 + 1 * k.val; omega
  have hr : right V c (ix2 k ((((cfg2.win 2).blk t).view.emb j) 1)) = iblk2 V c 1 t (ix2 k (j 1)) := by
    show right V c _ = right V c (((cfg2.win 1).blk t).view.emb (ix2 k (j 1)))
    refine congrArg (right V c) (funext fun a => Fin.ext ?_)
    match a with
    | ⟨0, _⟩ => show k.val = win2_1.index t (0 : Fin 2) * 128 + 1 * k.val; omega
    | ⟨1, _⟩ => show win2_2.index t (1 : Fin 2) * 128 + 1 * (j 1).val = win2_1.index t (1 : Fin 2) * 128 + 1 * (j 1).val; omega
  rw [hl, hr]

/-- An index of the result array lies in point `t`'s block iff each coordinate lies in the block's range. -/
theorem mem_block (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v51).slice (win2_2.rect t)).set ↔ _
  rw [View.set_slice_whole, Rect.mem_set_unit]
  exact Iff.rfl

/-- The row blocks tile the result array: row r lies in block r / 10000. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := index_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The result array after the region: the whole product of the two arrays the region read. -/
theorem final (c : Dev nD) : (dat2 (F := Ideal) V c).arrAt 2 cfg2.N = whole V c :=
  (dat2 V c).arrAt_eq_of_cover 2 (whole V c) (fun t _ => written_eq V c t) covered

end Cert.KernelIdeal.Product2

end
-- ==== Proof.Product4.lean ====
/-
  Region 4: a product computed one row block at a time. Each of the ten grid points multiplies a 10000-row block of the
  left array by the whole right array. On the extended reals the change to the narrower float format is the identity and a
  product accumulated into zero is the plain sum over the contracted coordinate, so the entry at row r, column c of a block
  is the sum over k of left (r, k) · right (k, c). The ten blocks written back tile the rows of the result array, which
  therefore ends holding the whole product: the host's dot_general of the two arrays as the region finds them.
-/
import proofs.«173730_j47304769798728_1_alg».proof.Proof.Gen.KernelIdeal.Frame
import proofs.«173730_j47304769798728_1_alg».proof.ReferenceIdeal
import proofs.«173730_j47304769798728_1_alg».proof.Proof.Gen.ReferenceIdeal
import proofs.«173730_j47304769798728_1_alg».proof.Proof.LibDot
import Idealize.ShloMosaic.Lib.Pipeline.Value
import Idealize.ShloMosaic.Lib.ValueIdx
import Idealize.ShloMosaic.PureOps.Ideal.Laws

set_option maxRecDepth 16384

noncomputable section

namespace Cert.KernelIdeal.Product4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin_eq : (![0, 0] : Fin 2 → Nat) = fun _ => 0 := funext fun a => by fin_cases a <;> rfl

/-- An entry of the body's result block: row `j 0` of the left block against column `j 1` of the right one. -/
theorem block_entry (x0 : Vec Ideal S10000x128 .f32) (x1 : Vec Ideal S128x64 .f32) (j : S10000x64.Idx) :
    k4_pay1 (F := Ideal) x0 x1 j = ∑ k : Fin 128, x0 (ix2 (j 0) k) * x1 (ix2 k (j 1)) := by
  unfold k4_pay1
  rw [shapeCast_self]
  exact Cert.LibDot.matmul_zero_plain_apply dot_S10000x128_S128x64_S10000x64_1_0_0_1_n_n rfl rfl rfl rfl rfl rfl none _ _ j

/-- The two arrays the region reads, as it finds them. -/
abbrev left (c : Dev nD) : FVec Ideal S100000x128 .f32 := V c main_v70
abbrev right (c : Dev nD) : FVec Ideal S128x64 .f32 := V c main_arg14

/-- The whole product of the two arrays the region reads, as the host computes it. -/
abbrev whole (c : Dev nD) : FVec Ideal S100000x64 .f32 :=
  Host.dotGeneral (F := Ideal) Cert.ReferenceIdeal.dot_S100000x128_S128x64_S100000x64_1_0_0_1_n_n none (left V c) (right V c)

/-- An entry of the whole product: the same sum over the contracted coordinate. -/
theorem whole_entry (c : Dev nD) (i : S100000x64.Idx) :
    whole V c i = ∑ k : Fin 128, left V c (ix2 (i 0) k) * right V c (ix2 k (i 1)) :=
  Cert.LibDot.dotGeneral_plain_apply Cert.ReferenceIdeal.dot_S100000x128_S128x64_S100000x64_1_0_0_1_n_n rfl rfl rfl rfl rfl rfl none _ (left V c) (right V c) i

/-- The printed index maps over the ten grid points: the left block's row index is the output block's, every column
    index and the right array's block indices are zero, and the output's row index is below ten. -/
theorem index_facts : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every row block is some grid point's. -/
theorem index_onto : ∀ q0 : Fin 10, ∃ t : Fin cfg4.N, win4_2.index t = ![q0.val, 0] :=
  (by decide +kernel : ∀ q0 : Fin 10, ∃ t : Fin grid4.N, win4_2.index t = ![q0.val, 0])

/-- What grid point `t` writes back is block `t` of the whole product. -/
theorem written_eq (c : Dev nD) (t : Fin cfg4.N) :
    (dat4 (F := Ideal) V c).flushed 2 t = ((cfg4.win 2).blk t).view.read (Elt Ideal) (whole V c) := by
  show (cfg4.win 2).cut (grid4.coords t) ((dat4 V c).after 2 t) = _
  rw [after4_2]
  unfold out4_2
  rw [View.canon_unit_zero origin_eq]
  simp only [View.ld_unit_zero (S := S10000x128) origin_eq, View.ld_unit_zero (S := S128x64) origin_eq]
  obtain ⟨e0, e1, e2, e3, e4, e5⟩ := index_facts t
  funext j
  show k4_pay1 (iblk4 V c 0 t) (iblk4 V c 1 t) j = whole V c (((cfg4.win 2).blk t).view.emb j)
  refine (block_entry _ _ j).trans ((whole_entry V c _).trans ?_).symm
  refine Finset.sum_congr rfl fun k _ => ?_
  have hl : left V c (ix2 ((((cfg4.win 2).blk t).view.emb j) 0) k) = iblk4 V c 0 t (ix2 (j 0) k) := by
    show left V c _ = left V c (((cfg4.win 0).blk t).view.emb (ix2 (j 0) k))
    refine congrArg (left V c) (funext fun a => Fin.ext ?_)
    match a with
    | ⟨0, _⟩ => show win4_2.index t (0 : Fin 2) * 10000 + 1 * (j 0).val = win4_0.index t (0 : Fin 2) * 10000 + 1 * (j 0).val; omega
    | ⟨1, _⟩ => show k.val = win4_0.index t (1 : Fin 2) * 128 + 1 * k.val; omega
  have hr : right V c (ix2 k ((((cfg4.win 2).blk t).view.emb j) 1)) = iblk4 V c 1 t (ix2 k (j 1)) := by
    show right V c _ = right V c (((cfg4.win 1).blk t).view.emb (ix2 k (j 1)))
    refine congrArg (right V c) (funext fun a => Fin.ext ?_)
    match a with
    | ⟨0, _⟩ => show k.val = win4_1.index t (0 : Fin 2) * 128 + 1 * k.val; omega
    | ⟨1, _⟩ => show win4_2.index t (1 : Fin 2) * 64 + 1 * (j 1).val = win4_1.index t (1 : Fin 2) * 64 + 1 * (j 1).val; omega
  rw [hl, hr]

/-- An index of the result array lies in point `t`'s block iff each coordinate lies in the block's range. -/
theorem mem_block (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v71).slice (win4_2.rect t)).set ↔ _
  rw [View.set_slice_whole, Rect.mem_set_unit]
  exact Iff.rfl

/-- The row blocks tile the result array: row r lies in block r / 10000. -/
theorem covered (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := index_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The result array after the region: the whole product of the two arrays the region read. -/
theorem final (c : Dev nD) : (dat4 (F := Ideal) V c).arrAt 2 cfg4.N = whole V c :=
  (dat4 V c).arrAt_eq_of_cover 2 (whole V c) (fun t _ => written_eq V c t) covered

end Cert.KernelIdeal.Product4

end
-- ==== Proof.Stages.lean ====
/-
  The two pointwise stages, as functions of array entries on the extended reals.

  The normalisation stage takes an entry x of a 100000 × 128 array and, from five 1 × 128 rows, the entries b, s, β, μ, v of
  its column, and gives  max (((x + b) − μ) · (s · rsqrt (v + ε)) + β, 0)  — bias, then batch normalisation with the folded
  scale s · rsqrt (v + ε), then the rectifier — with ε the single-precision word 0x3727C5AC. The bias stage adds to an
  entry of a 100000 × 64 array the entry of a 1 × 64 row in its column. A vector of length n is laid out as a 1 × n row by a
  reshape, which keeps the row-major position.
-/
import Idealize.ShloMosaic.Lib.ValueIdx
import Idealize.ShloMosaic.Lib.Pipeline.Value
import Idealize.ShloMosaic.PureOps.Ideal

noncomputable section

namespace Cert.Stages

open Idealize.ShloMosaic Idealize.ShloMosaic.ValueIdx

abbrev Rows128 : Shape := ⟨2, ![100000, 128]⟩
abbrev Row128 : Shape := ⟨2, ![1, 128]⟩
abbrev Rows64 : Shape := ⟨2, ![100000, 64]⟩
abbrev Row64 : Shape := ⟨2, ![1, 64]⟩

/-- One entry of the normalisation stage. -/
def normPoint (x b s β μ v : Ideal .f32) : Ideal .f32 :=
  FloatOps.maximumf
    (FloatOps.addf (FloatOps.mulf (FloatOps.subf (FloatOps.addf x b) μ)
      (FloatOps.mulf s (FloatOps.rsqrt (FloatOps.addf v (FloatOps.ofBits .f32 0x3727C5AC#32))))) β)
    (FloatOps.ofBits .f32 0x00000000#32)

/-- The normalisation stage of a whole array and five rows. -/
def normalized (x : Rows128.Idx → Ideal .f32) (b s β μ v : Row128.Idx → Ideal .f32) : Rows128.Idx → Ideal .f32 :=
  fun i => normPoint (x i) (b (ix2 0 (i 1))) (s (ix2 0 (i 1))) (β (ix2 0 (i 1))) (μ (ix2 0 (i 1))) (v (ix2 0 (i 1)))

/-- The bias stage of a whole array and a row. -/
def biased (x : Rows64.Idx → Ideal .f32) (b : Row64.Idx → Ideal .f32) : Rows64.Idx → Ideal .f32 :=
  fun i => FloatOps.addf (x i) (b (ix2 0 (i 1)))

abbrev Len128 : Shape := ⟨1, ![128]⟩
abbrev Len64 : Shape := ⟨1, ![64]⟩

/-- A vector of length 128 laid out as a 1 × 128 row. -/
def asRow128 (a : Len128.Idx → Ideal .f32) : Row128.Idx → Ideal .f32 := shapeCast Row128 a (by decide)

/-- A vector of length 64 laid out as a 1 × 64 row. -/
def asRow64 (a : Len64.Idx → Ideal .f32) : Row64.Idx → Ideal .f32 := shapeCast Row64 a (by decide)

/-- The row's entry in column c is the vector's entry c: the same row-major position. -/
theorem asRow128_apply (a : Len128.Idx → Ideal .f32) (c : Fin 128) : asRow128 a (ix2 0 c) = a (ix1 c) :=
  shapeCast_apply a _ (ix2 0 c) (ix1 c) (by
    rw [Shape.rowMajor_val_one, Shape.rowMajor_val_two]
    show c.val = 0 * 128 + c.val
    omega)

theorem asRow64_apply (a : Len64.Idx → Ideal .f32) (c : Fin 64) : asRow64 a (ix2 0 c) = a (ix1 c) :=
  shapeCast_apply a _ (ix2 0 c) (ix1 c) (by
    rw [Shape.rowMajor_val_one, Shape.rowMajor_val_two]
    show c.val = 0 * 64 + c.val
    omega)

end Cert.Stages

end
-- ==== Proof.Norm1.lean ====
/-
  Region 1: bias, batch normalisation and the rectifier, one row block at a time. Each of the ten grid points reads a
  10000-row block of the array and the five parameter rows whole, and writes the block of the stage's result: entry (r, c)
  is  max (((x (r, c) + b c) − μ c) · (s c · rsqrt (v c + ε)) + β c, 0). A row broadcast down the block reads the row at the
  entry's column. The ten blocks tile the rows, so the result array ends holding the stage of the whole array.
-/
import proofs.«173730_j47304769798728_1_alg».proof.Proof.Gen.KernelIdeal.Frame
import proofs.«173730_j47304769798728_1_alg».proof.Proof.Stages
import Idealize.ShloMosaic.Lib.Pipeline.Value
import Idealize.ShloMosaic.Lib.ValueIdx

set_option maxRecDepth 16384

noncomputable section

namespace Cert.KernelIdeal.Norm1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Stages

variable (V : (c : Dev nD) → (b : Ref sig .tc) → Buf (Elt Ideal) ((c : Thread nD τ).loc b))

theorem origin_eq : (![0, 0] : Fin 2 → Nat) = fun _ => 0 := funext fun a => by fin_cases a <;> rfl

/-- A row broadcast down a block, read at an entry: the row at the entry's column. -/
theorem row_down {α : Type} (x : S1x128.Idx → α) (h : S1x128.Broadcasts S10000x128) (j : S10000x128.Idx) :
    broadcastTo S10000x128 x h j = x (ix2 0 (j 1)) :=
  broadcastTo_apply x h j (ix2 0 (j 1)) (fun a => by
    match a with
    | ⟨0, _⟩ => rfl
    | ⟨1, _⟩ => rfl)

/-- An entry of the body's result block is the stage's entry of the block's entry and the rows' entries in its column. -/
theorem block_entry (x0 : Vec Ideal S10000x128 .f32) (x1 x2 x3 x4 x5 : Vec Ideal S1x128 .f32) (j : S10000x128.Idx) :
    k1_pay1 (F := Ideal) x0 x1 x2 x5 x4 x3 j
      = normPoint (x0 j) (x1 (ix2 0 (j 1))) (x2 (ix2 0 (j 1))) (x3 (ix2 0 (j 1))) (x4 (ix2 0 (j 1))) (x5 (ix2 0 (j 1))) := by
  unfold k1_pay1 normPoint
  simp only [shapeCast_self, Idealize.ShloMosaic.maximumf, Idealize.ShloMosaic.addf, Idealize.ShloMosaic.subf,
    Idealize.ShloMosaic.mulf, Idealize.ShloMosaic.rsqrt, Idealize.ShloMosaic.broadcast, row_down]

/-- The stage of the array and rows the region reads. -/
abbrev whole (c : Dev nD) : S100000x128.Idx → EReal :=
  normalized (V c main_v44) (V c main_v45) (V c main_v46) (V c main_v47) (V c main_v48) (V c main_v49)

/-- The printed index maps over the ten grid points: the input block's row index is the output block's, every column
    index and every parameter row's block index is zero, and the output's row index is below ten. -/
theorem index_facts : ∀ t : Fin cfg1.N, win1_0.index t (0 : Fin 2) = win1_6.index t (0 : Fin 2)
    ∧ win1_0.index t (1 : Fin 2) = 0 ∧ win1_6.index t (1 : Fin 2) = 0 ∧ win1_6.index t (0 : Fin 2) ≤ 9
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Every row block is some grid point's. -/
theorem index_onto : ∀ q0 : Fin 10, ∃ t : Fin cfg1.N, win1_6.index t = ![q0.val, 0] :=
  (by decide +kernel : ∀ q0 : Fin 10, ∃ t : Fin grid1.N, win1_6.index t = ![q0.val, 0])

set_option maxHeartbeats 1000000 in
/-- What grid point `t` writes back is block `t` of the stage of the whole array. -/
theorem written_eq (c : Dev nD) (t : Fin cfg1.N) :
    (dat1 (F := Ideal) V c).flushed 6 t = ((cfg1.win 6).blk t).view.read (Elt Ideal) (whole V c) := by
  show (cfg1.win 6).cut (grid1.coords t) ((dat1 V c).after 6 t) = _
  rw [after1_6]
  unfold out1_6
  rw [View.canon_unit_zero origin_eq]
  simp only [View.ld_unit_zero (S := S10000x128) origin_eq, View.ld_unit_zero (S := S1x128) origin_eq]
  obtain ⟨e0, e1, e2, e3, f10, f11, f20, f21, f30, f31, f40, f41, f50, f51⟩ := index_facts t
  funext j
  show k1_pay1 (iblk1 V c 0 t) (iblk1 V c 1 t) (iblk1 V c 2 t) (iblk1 V c 5 t) (iblk1 V c 4 t) (iblk1 V c 3 t) j
    = normPoint (V c main_v44 (((cfg1.win 6).blk t).view.emb j))
        (V c main_v45 (ix2 0 ((((cfg1.win 6).blk t).view.emb j) 1))) (V c main_v46 (ix2 0 ((((cfg1.win 6).blk t).view.emb j) 1)))
        (V c main_v47 (ix2 0 ((((cfg1.win 6).blk t).view.emb j) 1))) (V c main_v48 (ix2 0 ((((cfg1.win 6).blk t).view.emb j) 1)))
        (V c main_v49 (ix2 0 ((((cfg1.win 6).blk t).view.emb j) 1)))
  refine (block_entry _ _ _ _ _ _ j).trans ?_
  have h0 : V c main_v44 (((cfg1.win 6).blk t).view.emb j) = iblk1 V c 0 t j := by
    show V c main_v44 _ = V c main_v44 (((cfg1.win 0).blk t).view.emb j)
    refine congrArg (V c main_v44) (funext fun a => Fin.ext ?_)
    match a with
    | ⟨0, _⟩ => show win1_6.index t (0 : Fin 2) * 10000 + 1 * (j 0).val = win1_0.index t (0 : Fin 2) * 10000 + 1 * (j 0).val; omega
    | ⟨1, _⟩ => show win1_6.index t (1 : Fin 2) * 128 + 1 * (j 1).val = win1_0.index t (1 : Fin 2) * 128 + 1 * (j 1).val; omega
  have h1 : V c main_v45 (ix2 0 ((((cfg1.win 6).blk t).view.emb j) 1)) = iblk1 V c 1 t (ix2 0 (j 1)) := by
    show V c main_v45 _ = V c main_v45 (((cfg1.win 1).blk t).view.emb (ix2 0 (j 1)))
    refine congrArg (V c main_v45) (funext fun a => Fin.ext ?_)
    match a with
    | ⟨0, _⟩ => show 0 = win1_1.index t (0 : Fin 2) * 1 + 1 * 0; omega
    | ⟨1, _⟩ => show win1_6.index t (1 : Fin 2) * 128 + 1 * (j 1).val = win1_1.index t (1 : Fin 2) * 128 + 1 * (j 1).val; omega
  have h2 : V c main_v46 (ix2 0 ((((cfg1.win 6).blk t).view.emb j) 1)) = iblk1 V c 2 t (ix2 0 (j 1)) := by
    show V c main_v46 _ = V c main_v46 (((cfg1.win 2).blk t).view.emb (ix2 0 (j 1)))
    refine congrArg (V c main_v46) (funext fun a => Fin.ext ?_)
    match a with
    | ⟨0, _⟩ => show 0 = win1_2.index t (0 : Fin 2) * 1 + 1 * 0; omega
    | ⟨1, _⟩ => show win1_6.index t (1 : Fin 2) * 128 + 1 * (j 1).val = win1_2.index t (1 : Fin 2) * 128 + 1 * (j 1).val; omega
  have h3 : V c main_v47 (ix2 0 ((((cfg1.win 6).blk t).view.emb j) 1)) = iblk1 V c 3 t (ix2 0 (j 1)) := by
    show V c main_v47 _ = V c main_v47 (((cfg1.win 3).blk t).view.emb (ix2 0 (j 1)))
    refine congrArg (V c main_v47) (funext fun a => Fin.ext ?_)
    match a with
    | ⟨0, _⟩ => show 0 = win1_3.index t (0 : Fin 2) * 1 + 1 * 0; omega
    | ⟨1, _⟩ => show win1_6.index t (1 : Fin 2) * 128 + 1 * (j 1).val = win1_3.index t (1 : Fin 2) * 128 + 1 * (j 1).val; omega
  have h4 : V c main_v48 (ix2 0 ((((cfg1.win 6).blk t).view.emb j) 1)) = iblk1 V c 4 t (ix2 0 (j 1)) := by
    show V c main_v48 _ = V c main_v48 (((cfg1.win 4).blk t).view.emb (ix2 0 (j 1)))
    refine congrArg (V c main_v48) (funext fun a => Fin.ext ?_)
    match a with
    | ⟨0, _⟩ => show 0 = win1_4.index t (0 : Fin 2) * 1 + 1 * 0; omega
    | ⟨1, _⟩ => show win1_6.index t (1 : Fin 2) * 128 + 1 * (j 1).val = win1_4.index t (1 : Fin 2) * 128 + 1 * (j 1).val; omega
  have h5 : V c main_v49 (ix2 0 ((((cfg1.win 6).blk t).view.emb j) 1)) = iblk1 V c 5 t (ix2 0 (j 1)) := by
    show V c main_v49 _ = V c main_v49 (((cfg1.win 5).blk t).view.emb (ix2 0 (j 1)))
    refine congrArg (V c main_v49) (funext fun a => Fin.ext ?_)
    match a with
    | ⟨0, _⟩ => show 0 = win1_5.index t (0 : Fin 2) * 1 + 1 * 0; omega
    | ⟨1, _⟩ => show win1_6.index t (1 : Fin 2) * 128 + 1 * (j 1).val = win1_5.index t (1 : Fin 2) * 128 + 1 * (j 1).val; omega
  exact congr (congr (congr (congr (congr (congrArg normPoint h0.symm) h1.symm) h2.symm) h3.symm) h4.symm) h5.symm

/-- An index of the result array lies in point `t`'s block iff each coordinate lies in the block's range. -/
theorem mem_block (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v50).slice (win1_6.rect t)).set ↔ _
  rw [View.set_slice_whole, Rect.mem_set_unit]
  exact Iff.rfl

/-- The row blocks tile the result array: row r lies in block r / 10000. -/
theorem covered (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := index_onto ⟨(i 0).val / 10000, by omega⟩
  have q0 : win1_6.index t (0 : Fin 2) = (i 0).val / 10000 := congrFun ht 0
  have q1 : win1_6.index t (1 : Fin 2) = 0 := congrFun ht 1
  refine ⟨t, flush1_6 t, ?_⟩
  rw [mem_block]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- The result array after the region: the stage of the array and rows the region read. -/
theorem final (c : Dev nD) : (dat1 (F := Ideal) V c).arrAt 6 cfg1.N = whole V c :=
  (dat1 V c).arrAt_eq_of_cover 6 (whole V c) (fun t _ => written_eq V c t) covered

end Cert.KernelIdeal.Norm1

end
-- ==== Proof.Norm3.lean ====
/-
  Region 3: bias, batch normalisation and the rectifier, one row block at a time. Each of the ten grid points reads a
  10000-row block of the array and the five parameter rows whole, and writes the block of the stage's result: entry (r, c)
  is  max (((x (r, c) + b c) − μ c) · (s c · rsqrt (v c + ε)) + β c, 0). A row broadcast down the block reads the row at the
  entry's column. The ten blocks tile the rows, so the result array ends holding the stage of the whole array.
-/
import proofs.«173730_j47304769798728_1_alg».proof.Proof.Gen.KernelIdeal.Frame
import proofs.«173730_j47304769798728_1_alg».proof.Proof.Stages
import Idealize.ShloMosaic.Lib.Pipeline.Value
import Idealize.ShloMosaic.Lib.ValueIdx

set_option maxRecDepth 16384

noncomputable section

namespace Cert.KernelIdeal.Norm3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Stages

variable (V : (c : Dev nD) → (b : Ref sig .tc) → Buf (Elt Ideal) ((c : Thread nD τ).loc b))

theorem origin_eq : (![0, 0] : Fin 2 → Nat) = fun _ => 0 := funext fun a => by fin_cases a <;> rfl

/-- A row broadcast down a block, read at an entry: the row at the entry's column. -/
theorem row_down {α : Type} (x : S1x128.Idx → α) (h : S1x128.Broadcasts S10000x128) (j : S10000x128.Idx) :
    broadcastTo S10000x128 x h j = x (ix2 0 (j 1)) :=
  broadcastTo_apply x h j (ix2 0 (j 1)) (fun a => by
    match a with
    | ⟨0, _⟩ => rfl
    | ⟨1, _⟩ => rfl)

/-- An entry of the body's result block is the stage's entry of the block's entry and the rows' entries in its column. -/
theorem block_entry (x0 : Vec Ideal S10000x128 .f32) (x1 x2 x3 x4 x5 : Vec Ideal S1x128 .f32) (j : S10000x128.Idx) :
    k3_pay1 (F := Ideal) x0 x1 x2 x5 x4 x3 j
      = normPoint (x0 j) (x1 (ix2 0 (j 1))) (x2 (ix2 0 (j 1))) (x3 (ix2 0 (j 1))) (x4 (ix2 0 (j 1))) (x5 (ix2 0 (j 1))) := by
  unfold k3_pay1 normPoint
  simp only [shapeCast_self, Idealize.ShloMosaic.maximumf, Idealize.ShloMosaic.addf, Idealize.ShloMosaic.subf,
    Idealize.ShloMosaic.mulf, Idealize.ShloMosaic.rsqrt, Idealize.ShloMosaic.broadcast, row_down]

/-- The stage of the array and rows the region reads. -/
abbrev whole (c : Dev nD) : S100000x128.Idx → EReal :=
  normalized (V c main_v64) (V c main_v65) (V c main_v66) (V c main_v67) (V c main_v68) (V c main_v69)

/-- The printed index maps over the ten grid points: the input block's row index is the output block's, every column
    index and every parameter row's block index is zero, and the output's row index is below ten. -/
theorem index_facts : ∀ t : Fin cfg3.N, win3_0.index t (0 : Fin 2) = win3_6.index t (0 : Fin 2)
    ∧ win3_0.index t (1 : Fin 2) = 0 ∧ win3_6.index t (1 : Fin 2) = 0 ∧ win3_6.index t (0 : Fin 2) ≤ 9
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Every row block is some grid point's. -/
theorem index_onto : ∀ q0 : Fin 10, ∃ t : Fin cfg3.N, win3_6.index t = ![q0.val, 0] :=
  (by decide +kernel : ∀ q0 : Fin 10, ∃ t : Fin grid3.N, win3_6.index t = ![q0.val, 0])

set_option maxHeartbeats 1000000 in
/-- What grid point `t` writes back is block `t` of the stage of the whole array. -/
theorem written_eq (c : Dev nD) (t : Fin cfg3.N) :
    (dat3 (F := Ideal) V c).flushed 6 t = ((cfg3.win 6).blk t).view.read (Elt Ideal) (whole V c) := by
  show (cfg3.win 6).cut (grid3.coords t) ((dat3 V c).after 6 t) = _
  rw [after3_6]
  unfold out3_6
  rw [View.canon_unit_zero origin_eq]
  simp only [View.ld_unit_zero (S := S10000x128) origin_eq, View.ld_unit_zero (S := S1x128) origin_eq]
  obtain ⟨e0, e1, e2, e3, f10, f11, f20, f21, f30, f31, f40, f41, f50, f51⟩ := index_facts t
  funext j
  show k3_pay1 (iblk3 V c 0 t) (iblk3 V c 1 t) (iblk3 V c 2 t) (iblk3 V c 5 t) (iblk3 V c 4 t) (iblk3 V c 3 t) j
    = normPoint (V c main_v64 (((cfg3.win 6).blk t).view.emb j))
        (V c main_v65 (ix2 0 ((((cfg3.win 6).blk t).view.emb j) 1))) (V c main_v66 (ix2 0 ((((cfg3.win 6).blk t).view.emb j) 1)))
        (V c main_v67 (ix2 0 ((((cfg3.win 6).blk t).view.emb j) 1))) (V c main_v68 (ix2 0 ((((cfg3.win 6).blk t).view.emb j) 1)))
        (V c main_v69 (ix2 0 ((((cfg3.win 6).blk t).view.emb j) 1)))
  refine (block_entry _ _ _ _ _ _ j).trans ?_
  have h0 : V c main_v64 (((cfg3.win 6).blk t).view.emb j) = iblk3 V c 0 t j := by
    show V c main_v64 _ = V c main_v64 (((cfg3.win 0).blk t).view.emb j)
    refine congrArg (V c main_v64) (funext fun a => Fin.ext ?_)
    match a with
    | ⟨0, _⟩ => show win3_6.index t (0 : Fin 2) * 10000 + 1 * (j 0).val = win3_0.index t (0 : Fin 2) * 10000 + 1 * (j 0).val; omega
    | ⟨1, _⟩ => show win3_6.index t (1 : Fin 2) * 128 + 1 * (j 1).val = win3_0.index t (1 : Fin 2) * 128 + 1 * (j 1).val; omega
  have h1 : V c main_v65 (ix2 0 ((((cfg3.win 6).blk t).view.emb j) 1)) = iblk3 V c 1 t (ix2 0 (j 1)) := by
    show V c main_v65 _ = V c main_v65 (((cfg3.win 1).blk t).view.emb (ix2 0 (j 1)))
    refine congrArg (V c main_v65) (funext fun a => Fin.ext ?_)
    match a with
    | ⟨0, _⟩ => show 0 = win3_1.index t (0 : Fin 2) * 1 + 1 * 0; omega
    | ⟨1, _⟩ => show win3_6.index t (1 : Fin 2) * 128 + 1 * (j 1).val = win3_1.index t (1 : Fin 2) * 128 + 1 * (j 1).val; omega
  have h2 : V c main_v66 (ix2 0 ((((cfg3.win 6).blk t).view.emb j) 1)) = iblk3 V c 2 t (ix2 0 (j 1)) := by
    show V c main_v66 _ = V c main_v66 (((cfg3.win 2).blk t).view.emb (ix2 0 (j 1)))
    refine congrArg (V c main_v66) (funext fun a => Fin.ext ?_)
    match a with
    | ⟨0, _⟩ => show 0 = win3_2.index t (0 : Fin 2) * 1 + 1 * 0; omega
    | ⟨1, _⟩ => show win3_6.index t (1 : Fin 2) * 128 + 1 * (j 1).val = win3_2.index t (1 : Fin 2) * 128 + 1 * (j 1).val; omega
  have h3 : V c main_v67 (ix2 0 ((((cfg3.win 6).blk t).view.emb j) 1)) = iblk3 V c 3 t (ix2 0 (j 1)) := by
    show V c main_v67 _ = V c main_v67 (((cfg3.win 3).blk t).view.emb (ix2 0 (j 1)))
    refine congrArg (V c main_v67) (funext fun a => Fin.ext ?_)
    match a with
    | ⟨0, _⟩ => show 0 = win3_3.index t (0 : Fin 2) * 1 + 1 * 0; omega
    | ⟨1, _⟩ => show win3_6.index t (1 : Fin 2) * 128 + 1 * (j 1).val = win3_3.index t (1 : Fin 2) * 128 + 1 * (j 1).val; omega
  have h4 : V c main_v68 (ix2 0 ((((cfg3.win 6).blk t).view.emb j) 1)) = iblk3 V c 4 t (ix2 0 (j 1)) := by
    show V c main_v68 _ = V c main_v68 (((cfg3.win 4).blk t).view.emb (ix2 0 (j 1)))
    refine congrArg (V c main_v68) (funext fun a => Fin.ext ?_)
    match a with
    | ⟨0, _⟩ => show 0 = win3_4.index t (0 : Fin 2) * 1 + 1 * 0; omega
    | ⟨1, _⟩ => show win3_6.index t (1 : Fin 2) * 128 + 1 * (j 1).val = win3_4.index t (1 : Fin 2) * 128 + 1 * (j 1).val; omega
  have h5 : V c main_v69 (ix2 0 ((((cfg3.win 6).blk t).view.emb j) 1)) = iblk3 V c 5 t (ix2 0 (j 1)) := by
    show V c main_v69 _ = V c main_v69 (((cfg3.win 5).blk t).view.emb (ix2 0 (j 1)))
    refine congrArg (V c main_v69) (funext fun a => Fin.ext ?_)
    match a with
    | ⟨0, _⟩ => show 0 = win3_5.index t (0 : Fin 2) * 1 + 1 * 0; omega
    | ⟨1, _⟩ => show win3_6.index t (1 : Fin 2) * 128 + 1 * (j 1).val = win3_5.index t (1 : Fin 2) * 128 + 1 * (j 1).val; omega
  exact congr (congr (congr (congr (congr (congrArg normPoint h0.symm) h1.symm) h2.symm) h3.symm) h4.symm) h5.symm

/-- An index of the result array lies in point `t`'s block iff each coordinate lies in the block's range. -/
theorem mem_block (t : Fin cfg3.N) (i : S100000x128.Idx) :
    i ∈ ((cfg3.win 6).blk t).view.set ↔ ∀ a : Fin 2, win3_6.index t a * S10000x128.size a ≤ (i a).val ∧ (i a).val < win3_6.index t a * S10000x128.size a + S10000x128.size a := by
  show i ∈ ((View.whole main_v70).slice (win3_6.rect t)).set ↔ _
  rw [View.set_slice_whole, Rect.mem_set_unit]
  exact Iff.rfl

/-- The row blocks tile the result array: row r lies in block r / 10000. -/
theorem covered (i : S100000x128.Idx) : ∃ t : Fin cfg3.N, (cfg3.win 6).flush t = true ∧ i ∈ ((cfg3.win 6).blk t).view.set := by
  have hi0 : (i 0).val < 100000 := (i 0).isLt
  have hi1 : (i 1).val < 128 := (i 1).isLt
  obtain ⟨t, ht⟩ := index_onto ⟨(i 0).val / 10000, by omega⟩
  have q0 : win3_6.index t (0 : Fin 2) = (i 0).val / 10000 := congrFun ht 0
  have q1 : win3_6.index t (1 : Fin 2) = 0 := congrFun ht 1
  refine ⟨t, flush3_6 t, ?_⟩
  rw [mem_block]
  intro a
  match a with
  | ⟨0, _⟩ => show win3_6.index t (0 : Fin 2) * 10000 ≤ (i 0).val ∧ (i 0).val < win3_6.index t (0 : Fin 2) * 10000 + 10000; omega
  | ⟨1, _⟩ => show win3_6.index t (1 : Fin 2) * 128 ≤ (i 1).val ∧ (i 1).val < win3_6.index t (1 : Fin 2) * 128 + 128; omega

/-- The result array after the region: the stage of the array and rows the region read. -/
theorem final (c : Dev nD) : (dat3 (F := Ideal) V c).arrAt 6 cfg3.N = whole V c :=
  (dat3 V c).arrAt_eq_of_cover 6 (whole V c) (fun t _ => written_eq V c t) covered

end Cert.KernelIdeal.Norm3

end
-- ==== Proof.Bias5.lean ====
/-
  Region 5: the last bias, one row block at a time. Each of the ten grid points reads a 10000-row block of the 100000 × 64
  array and the 1 × 64 row whole, and writes the block plus the row broadcast down it: entry (r, c) is x (r, c) + b c. The
  ten blocks tile the rows, so the result array ends holding the bias stage of the whole array.
-/
import proofs.«173730_j47304769798728_1_alg».proof.Proof.Gen.KernelIdeal.Frame
import proofs.«173730_j47304769798728_1_alg».proof.Proof.Stages
import Idealize.ShloMosaic.Lib.Pipeline.Value
import Idealize.ShloMosaic.Lib.ValueIdx

set_option maxRecDepth 16384

noncomputable section

namespace Cert.KernelIdeal.Bias5

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Stages

variable (V : (c : Dev nD) → (b : Ref sig .tc) → Buf (Elt Ideal) ((c : Thread nD τ).loc b))

theorem origin_eq : (![0, 0] : Fin 2 → Nat) = fun _ => 0 := funext fun a => by fin_cases a <;> rfl

/-- A row broadcast down a block, read at an entry: the row at the entry's column. -/
theorem row_down {α : Type} (x : S1x64.Idx → α) (h : S1x64.Broadcasts S10000x64) (j : S10000x64.Idx) :
    broadcastTo S10000x64 x h j = x (ix2 0 (j 1)) :=
  broadcastTo_apply x h j (ix2 0 (j 1)) (fun a => by
    match a with
    | ⟨0, _⟩ => rfl
    | ⟨1, _⟩ => rfl)

/-- An entry of the body's result block: the block's entry plus the row's entry in its column. -/
theorem block_entry (x0 : Vec Ideal S10000x64 .f32) (x1 : Vec Ideal S1x64 .f32) (j : S10000x64.Idx) :
    k5_pay1 (F := Ideal) x0 x1 j = FloatOps.addf (x0 j) (x1 (ix2 0 (j 1))) := by
  unfold k5_pay1
  simp only [shapeCast_self, Idealize.ShloMosaic.addf, row_down]

/-- The bias stage of the array and row the region reads. -/
abbrev whole (c : Dev nD) : S100000x64.Idx → EReal := biased (V c main_v84) (V c main_v85)

/-- The printed index maps over the ten grid points. -/
theorem index_facts : ∀ t : Fin cfg5.N, win5_0.index t (0 : Fin 2) = win5_2.index t (0 : Fin 2)
    ∧ win5_0.index t (1 : Fin 2) = 0 ∧ win5_2.index t (1 : Fin 2) = 0 ∧ win5_2.index t (0 : Fin 2) ≤ 9
    ∧ win5_1.index t (0 : Fin 2) = 0 ∧ win5_1.index t (1 : Fin 2) = 0 :=
  (by decide +kernel : ∀ t : Fin grid5.N, _)

/-- Every row block is some grid point's. -/
theorem index_onto : ∀ q0 : Fin 10, ∃ t : Fin cfg5.N, win5_2.index t = ![q0.val, 0] :=
  (by decide +kernel : ∀ q0 : Fin 10, ∃ t : Fin grid5.N, win5_2.index t = ![q0.val, 0])

/-- What grid point `t` writes back is block `t` of the bias stage of the whole array. -/
theorem written_eq (c : Dev nD) (t : Fin cfg5.N) :
    (dat5 (F := Ideal) V c).flushed 2 t = ((cfg5.win 2).blk t).view.read (Elt Ideal) (whole V c) := by
  show (cfg5.win 2).cut (grid5.coords t) ((dat5 V c).after 2 t) = _
  rw [after5_2]
  unfold out5_2
  rw [View.canon_unit_zero origin_eq]
  simp only [View.ld_unit_zero (S := S10000x64) origin_eq, View.ld_unit_zero (S := S1x64) origin_eq]
  obtain ⟨e0, e1, e2, e3, f10, f11⟩ := index_facts t
  funext j
  show k5_pay1 (iblk5 V c 0 t) (iblk5 V c 1 t) j
    = FloatOps.addf (V c main_v84 (((cfg5.win 2).blk t).view.emb j)) (V c main_v85 (ix2 0 ((((cfg5.win 2).blk t).view.emb j) 1)))
  refine (block_entry _ _ j).trans ?_
  have h0 : V c main_v84 (((cfg5.win 2).blk t).view.emb j) = iblk5 V c 0 t j := by
    show V c main_v84 _ = V c main_v84 (((cfg5.win 0).blk t).view.emb j)
    refine congrArg (V c main_v84) (funext fun a => Fin.ext ?_)
    match a with
    | ⟨0, _⟩ => show win5_2.index t (0 : Fin 2) * 10000 + 1 * (j 0).val = win5_0.index t (0 : Fin 2) * 10000 + 1 * (j 0).val; omega
    | ⟨1, _⟩ => show win5_2.index t (1 : Fin 2) * 64 + 1 * (j 1).val = win5_0.index t (1 : Fin 2) * 64 + 1 * (j 1).val; omega
  have h1 : V c main_v85 (ix2 0 ((((cfg5.win 2).blk t).view.emb j) 1)) = iblk5 V c 1 t (ix2 0 (j 1)) := by
    show V c main_v85 _ = V c main_v85 (((cfg5.win 1).blk t).view.emb (ix2 0 (j 1)))
    refine congrArg (V c main_v85) (funext fun a => Fin.ext ?_)
    match a with
    | ⟨0, _⟩ => show 0 = win5_1.index t (0 : Fin 2) * 1 + 1 * 0; omega
    | ⟨1, _⟩ => show win5_2.index t (1 : Fin 2) * 64 + 1 * (j 1).val = win5_1.index t (1 : Fin 2) * 64 + 1 * (j 1).val; omega
  rw [h0, h1]

/-- An index of the result array lies in point `t`'s block iff each coordinate lies in the block's range. -/
theorem mem_block (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v86).slice (win5_2.rect t)).set ↔ _
  rw [View.set_slice_whole, Rect.mem_set_unit]
  exact Iff.rfl

/-- The row blocks tile the result array: row r lies in block r / 10000. -/
theorem covered (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := index_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The result array after the region: the bias stage of the array and row the region read. -/
theorem final (c : Dev nD) : (dat5 (F := Ideal) V c).arrAt 2 cfg5.N = whole V c :=
  (dat5 V c).arrAt_eq_of_cover 2 (whole V c) (fun t _ => written_eq V c t) covered

end Cert.KernelIdeal.Bias5

end
-- ==== Proof.Passing.lean ====
/-
  Graph message passing on the host, as functions of arrays — the operations that both programs apply unchanged.

  From the 2 × 1600000 edge index the source and destination vectors of length 1700000 are its two rows, each followed by
  0 … 99999 (a self-loop per node). The degree of a node is the number of edges arriving at it (a scatter-add of ones), its
  weight is rsqrt (degree) where the degree is positive and 0 elsewhere, and the weight of an edge is the product of the
  weights of its two ends. One round of passing takes a feature array h, gathers row source (e) of h for every edge e
  (an index below zero wrapped once by 100000), scales it by the edge's weight and scatter-adds it into row
  destination (e) of a zero array. The reference's whole result is three such rounds, each after a matrix product, with
  the host's normalisation chain between them and the bias at the end: that composition is `network`.
-/
import proofs.«173730_j47304769798728_1_alg».proof.ReferenceIdeal
import proofs.«173730_j47304769798728_1_alg».proof.Proof.Gen.ReferenceIdeal
import Idealize.ShloMosaic.PureOps.Ideal

set_option maxRecDepth 16384

noncomputable section

namespace Cert.Passing

open Cert.ReferenceIdeal Cert.ReferenceIdeal.Gen Idealize.ShloMosaic Idealize.ShloMosaic.TcCoe Idealize.SL.Sem Idealize.ShloMosaic.StableHlo

variable {F : FTy → Type} [FloatOps F]

/-- The edges' sources: row 0 of the edge index, then every node once. -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' destinations: row 1 of the edge index, then every node once. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A node vector as gather start indices: a negative index wrapped once by the number of nodes, one index per row. -/
def startOf (v : (⟨S1700000, .i32⟩ : BufTy).Contents (Elt F)) : (⟨S1700000x1, .i32⟩ : BufTy).Contents (Elt F) :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The number of edges arriving at each node. -/
def degOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- A node's weight: rsqrt of its degree where that is positive, zero elsewhere. -/
def dinvOf (dst : (⟨S1700000, .i32⟩ : BufTy).Contents (Elt F)) : (⟨S100000, .f32⟩ : BufTy).Contents (Elt F) :=
  select (cmpf (F := F) .ogt (degOf dst) (broadcastInDim S100000 ![] bcast_S_S100000 (constant S_ .f32 0x00000000#32))) (Host.rsqrt (degOf dst)) (broadcastInDim S100000 ![] bcast_S_S100000 (id (constant S_ .f32 0x00000000#32)))

/-- An edge's weight: the product of the weights of its source and of its destination. -/
def normOf (src dst : (⟨S1700000, .i32⟩ : BufTy).Contents (Elt F)) : (⟨S1700000, .f32⟩ : BufTy).Contents (Elt F) :=
  mulf (mulf (Host.gather gather_S100000_S1700000x1_S1700000_n_0_n_n_0_1_1 (dinvOf dst) (startOf src)) (broadcastInDim S1700000 ![] bcast_S_S1700000 (constant S_ .f32 0x3F800000#32))) (Host.gather gather_S100000_S1700000x1_S1700000_n_0_n_n_0_1_1 (dinvOf dst) (startOf dst))

/-- One round of passing over 128 features. -/
def pass128 (h : (⟨S100000x128, .f32⟩ : BufTy).Contents (Elt F)) (src dst : (⟨S1700000, .i32⟩ : BufTy).Contents (Elt F)) (nrm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 h (startOf src)) (broadcastInDim S1700000x128 ![0, 1] bcast_S1700000x1_S1700000x128_0_1 (broadcastInDim S1700000x1 ![0] bcast_S1700000_S1700000x1_0 nrm)))

/-- One round of passing over 64 features. -/
def pass64 (h : (⟨S100000x64, .f32⟩ : BufTy).Contents (Elt F)) (src dst : (⟨S1700000, .i32⟩ : BufTy).Contents (Elt F)) (nrm : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (startOf src)) (broadcastInDim S1700000x64 ![0, 1] bcast_S1700000x1_S1700000x64_0_1 (broadcastInDim S1700000x1 ![0] bcast_S1700000_S1700000x1_0 nrm)))

/-- The host's matrix products. -/
def dot128 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w
def dot64 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- The host's bias, batch normalisation and rectifier of an array and five length-128 vectors (bias, scale, shift,
    mean, variance). -/
def normRef (x : (⟨S100000x128, .f32⟩ : BufTy).Contents (Elt F)) (b s β μ v : (⟨S128, .f32⟩ : BufTy).Contents (Elt F)) : (⟨S100000x128, .f32⟩ : BufTy).Contents (Elt F) :=
  maximumf (addf (mulf (subf (addf x (broadcastInDim S100000x128 ![0, 1] bcast_S1x128_S100000x128_0_1 (broadcastInDim S1x128 ![1] bcast_S128_S1x128_1 b))) (broadcastInDim S100000x128 ![0, 1] bcast_S1x128_S100000x128_0_1 (broadcastInDim S1x128 ![1] bcast_S128_S1x128_1 μ))) (broadcastInDim S100000x128 ![0, 1] bcast_S1x128_S100000x128_0_1 (broadcastInDim S1x128 ![1] bcast_S128_S1x128_1 (mulf s (Host.rsqrt (addf v (broadcastInDim S128 ![] bcast_S_S128 (constant S_ .f32 0x3727C5AC#32)))))))) (broadcastInDim S100000x128 ![0, 1] bcast_S1x128_S100000x128_0_1 (broadcastInDim S1x128 ![1] bcast_S128_S1x128_1 β))) (broadcastInDim S100000x128 ![] bcast_S_S100000x128 (constant S_ .f32 0x00000000#32))

/-- The host's last bias. -/
def biasRef (x : (⟨S100000x64, .f32⟩ : BufTy).Contents (Elt F)) (b : (⟨S64, .f32⟩ : BufTy).Contents (Elt F)) : (⟨S100000x64, .f32⟩ : BufTy).Contents (Elt F) :=
  addf x (broadcastInDim S100000x64 ![0, 1] bcast_S1x64_S100000x64_0_1 (broadcastInDim S1x64 ![1] bcast_S64_S1x64_1 b))

/-- The reference's whole computation, with the stages between the products as parameters: three rounds of passing,
    each after a product, `norm₁` and `norm₂` after the first two rounds and `bias` after the third. -/
def networkWith
    (norm₁ norm₂ : (⟨S100000x128, .f32⟩ : BufTy).Contents (Elt F) → (⟨S100000x128, .f32⟩ : BufTy).Contents (Elt F))
    (bias : (⟨S100000x64, .f32⟩ : BufTy).Contents (Elt F) → (⟨S100000x64, .f32⟩ : BufTy).Contents (Elt F))
    (prod₁ prod₂ : (⟨S100000x128, .f32⟩ : BufTy).Contents (Elt F) → (⟨S100000x128, .f32⟩ : BufTy).Contents (Elt F))
    (prod₃ : (⟨S100000x128, .f32⟩ : BufTy).Contents (Elt F) → (⟨S100000x64, .f32⟩ : BufTy).Contents (Elt F))
    (x : (⟨S100000x128, .f32⟩ : BufTy).Contents (Elt F)) (ei : (⟨S2x1600000, .i32⟩ : BufTy).Contents (Elt F)) : (⟨S100000x64, .f32⟩ : BufTy).Contents (Elt F) :=
  bias (pass64 (prod₃ (norm₂ (pass128 (prod₂ (norm₁ (pass128 (prod₁ x) (srcOf ei) (dstOf ei) (normOf (srcOf ei) (dstOf ei)))))
    (srcOf ei) (dstOf ei) (normOf (srcOf ei) (dstOf ei))))) (srcOf ei) (dstOf ei) (normOf (srcOf ei) (dstOf ei)))

/-- The reference's whole computation of its sixteen arguments. -/
def network (a0 : (⟨S100000x128, .f32⟩ : BufTy).Contents (Elt F)) (a1 : (⟨S2x1600000, .i32⟩ : BufTy).Contents (Elt F)) (a2 : (⟨S128x128, .f32⟩ : BufTy).Contents (Elt F)) (a3 : (⟨S128, .f32⟩ : BufTy).Contents (Elt F)) (a4 : (⟨S128, .f32⟩ : BufTy).Contents (Elt F)) (a5 : (⟨S128, .f32⟩ : BufTy).Contents (Elt F)) (a6 : (⟨S128, .f32⟩ : BufTy).Contents (Elt F)) (a7 : (⟨S128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S128, .f32⟩ : BufTy).Contents (Elt F)) (a13 : (⟨S128, .f32⟩ : BufTy).Contents (Elt F)) (a14 : (⟨S128x64, .f32⟩ : BufTy).Contents (Elt F)) (a15 : (⟨S64, .f32⟩ : BufTy).Contents (Elt F)) : (⟨S100000x64, .f32⟩ : BufTy).Contents (Elt F) :=
  networkWith (fun y => normRef y a3 a4 a5 a6 a7) (fun y => normRef y a9 a10 a11 a12 a13) (fun y => biasRef y a15)
    (fun y => dot128 y a2) (fun y => dot128 y a8) (fun y => dot64 y a14) a0 a1

end Cert.Passing

end
-- ==== Proof.KernelValue.lean ====
/-
  The kernel program's result as a function of its arguments.

  The program's memory at each of its twelve segment boundaries is a fold: a host stretch applies its operations, a region
  replaces its output array by what its write-backs leave. Read backwards from the result buffer: the last region leaves
  the bias stage of what the last host stretch made; that stretch made one round of message passing of the third product;
  the third product is of the second normalisation stage; and so on down to the first product, of two arguments. What
  every round reads besides its features — the edges' sources, destinations and weights, made before the first region —
  and every argument a later segment reads are carried unchanged across the segments between. Each region's output is
  the whole-array function proved for it; each host stretch's is its operations' composition.
-/
import proofs.«173730_j47304769798728_1_alg».proof.Proof.Gen.KernelIdeal.Frame
import proofs.«173730_j47304769798728_1_alg».proof.Proof.Product0
import proofs.«173730_j47304769798728_1_alg».proof.Proof.Product2
import proofs.«173730_j47304769798728_1_alg».proof.Proof.Product4
import proofs.«173730_j47304769798728_1_alg».proof.Proof.Norm1
import proofs.«173730_j47304769798728_1_alg».proof.Proof.Norm3
import proofs.«173730_j47304769798728_1_alg».proof.Proof.Bias5
import proofs.«173730_j47304769798728_1_alg».proof.Proof.Passing
import proofs.«173730_j47304769798728_1_alg».proof.Proof.Stages
import Idealize.ShloMosaic.Lib.StableHlo.Run
import Idealize.ShloMosaic.PureOps.Ideal

set_option maxRecDepth 16384
set_option maxHeartbeats 1000000

noncomputable section

namespace Cert.KernelIdeal.Result

open Idealize.ShloMosaic Idealize.ShloMosaic.TcCoe Idealize.SL.Sem Idealize.ShloMosaic.StableHlo
open Cert.KernelIdeal Cert.KernelIdeal.Gen Cert.Passing Cert.Stages

variable (m : (ℓ : Loc nD τ sig) → Buf (Elt Ideal) ℓ) (ρ : Dev nD → PrngReg) (c : Dev nD)

/-! ## What the later segments read, carried from where it is made

The arguments sit in the launch memory and no segment writes them; the edges' sources, destinations and weights are made
by the host operations before the first region and no later segment writes them. Boundary by boundary each is still what
it was: a host stretch leaves a buffer it does not write, a region leaves every buffer that is not one of its arrays. -/

theorem arg0_at3 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl

theorem arg2_at3 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl

theorem arg3_at3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl

theorem arg3_at4 : W4 m ρ c (Proc.devRef .tc main_arg3) = (m ((c : Thread nD τ).loc main_arg3)) :=
  (W4_of_ne m ρ c main_arg3 (by decide)).trans (arg3_at3 m ρ c)

theorem arg4_at3 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl

theorem arg4_at4 : W4 m ρ c (Proc.devRef .tc main_arg4) = (m ((c : Thread nD τ).loc main_arg4)) :=
  (W4_of_ne m ρ c main_arg4 (by decide)).trans (arg4_at3 m ρ c)

theorem arg5_at3 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl

theorem arg5_at4 : W4 m ρ c (Proc.devRef .tc main_arg5) = (m ((c : Thread nD τ).loc main_arg5)) :=
  (W4_of_ne m ρ c main_arg5 (by decide)).trans (arg5_at3 m ρ c)

theorem arg6_at3 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl

theorem arg6_at4 : W4 m ρ c (Proc.devRef .tc main_arg6) = (m ((c : Thread nD τ).loc main_arg6)) :=
  (W4_of_ne m ρ c main_arg6 (by decide)).trans (arg6_at3 m ρ c)

theorem arg7_at3 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl

theorem arg7_at4 : W4 m ρ c (Proc.devRef .tc main_arg7) = (m ((c : Thread nD τ).loc main_arg7)) :=
  (W4_of_ne m ρ c main_arg7 (by decide)).trans (arg7_at3 m ρ c)

theorem arg8_at3 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl

theorem arg8_at4 : W4 m ρ c (Proc.devRef .tc main_arg8) = (m ((c : Thread nD τ).loc main_arg8)) :=
  (W4_of_ne m ρ c main_arg8 (by decide)).trans (arg8_at3 m ρ c)

theorem arg8_at5 : W5 m ρ c (Proc.devRef .tc main_arg8) = (m ((c : Thread nD τ).loc main_arg8)) := by
  show StableHlo.after hostOps1 (W4 m ρ c) (Proc.devRef .tc main_arg8) = _
  after_results_simp
  exact arg8_at4 m ρ c

theorem arg8_at6 : W6 m ρ c (Proc.devRef .tc main_arg8) = (m ((c : Thread nD τ).loc main_arg8)) :=
  (W6_of_ne m ρ c main_arg8 (by decide)).trans (arg8_at5 m ρ c)

theorem arg9_at3 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl

theorem arg9_at4 : W4 m ρ c (Proc.devRef .tc main_arg9) = (m ((c : Thread nD τ).loc main_arg9)) :=
  (W4_of_ne m ρ c main_arg9 (by decide)).trans (arg9_at3 m ρ c)

theorem arg9_at5 : W5 m ρ c (Proc.devRef .tc main_arg9) = (m ((c : Thread nD τ).loc main_arg9)) := by
  show StableHlo.after hostOps1 (W4 m ρ c) (Proc.devRef .tc main_arg9) = _
  after_results_simp
  exact arg9_at4 m ρ c

theorem arg9_at6 : W6 m ρ c (Proc.devRef .tc main_arg9) = (m ((c : Thread nD τ).loc main_arg9)) :=
  (W6_of_ne m ρ c main_arg9 (by decide)).trans (arg9_at5 m ρ c)

theorem arg9_at7 : W7 m ρ c (Proc.devRef .tc main_arg9) = (m ((c : Thread nD τ).loc main_arg9)) :=
  (W7_of_ne m ρ c main_arg9 (by decide)).trans (arg9_at6 m ρ c)

theorem arg10_at3 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp <;> rfl

theorem arg10_at4 : W4 m ρ c (Proc.devRef .tc main_arg10) = (m ((c : Thread nD τ).loc main_arg10)) :=
  (W4_of_ne m ρ c main_arg10 (by decide)).trans (arg10_at3 m ρ c)

theorem arg10_at5 : W5 m ρ c (Proc.devRef .tc main_arg10) = (m ((c : Thread nD τ).loc main_arg10)) := by
  show StableHlo.after hostOps1 (W4 m ρ c) (Proc.devRef .tc main_arg10) = _
  after_results_simp
  exact arg10_at4 m ρ c

theorem arg10_at6 : W6 m ρ c (Proc.devRef .tc main_arg10) = (m ((c : Thread nD τ).loc main_arg10)) :=
  (W6_of_ne m ρ c main_arg10 (by decide)).trans (arg10_at5 m ρ c)

theorem arg10_at7 : W7 m ρ c (Proc.devRef .tc main_arg10) = (m ((c : Thread nD τ).loc main_arg10)) :=
  (W7_of_ne m ρ c main_arg10 (by decide)).trans (arg10_at6 m ρ c)

theorem arg11_at3 : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  after_results_simp <;> rfl

theorem arg11_at4 : W4 m ρ c (Proc.devRef .tc main_arg11) = (m ((c : Thread nD τ).loc main_arg11)) :=
  (W4_of_ne m ρ c main_arg11 (by decide)).trans (arg11_at3 m ρ c)

theorem arg11_at5 : W5 m ρ c (Proc.devRef .tc main_arg11) = (m ((c : Thread nD τ).loc main_arg11)) := by
  show StableHlo.after hostOps1 (W4 m ρ c) (Proc.devRef .tc main_arg11) = _
  after_results_simp
  exact arg11_at4 m ρ c

theorem arg11_at6 : W6 m ρ c (Proc.devRef .tc main_arg11) = (m ((c : Thread nD τ).loc main_arg11)) :=
  (W6_of_ne m ρ c main_arg11 (by decide)).trans (arg11_at5 m ρ c)

theorem arg11_at7 : W7 m ρ c (Proc.devRef .tc main_arg11) = (m ((c : Thread nD τ).loc main_arg11)) :=
  (W7_of_ne m ρ c main_arg11 (by decide)).trans (arg11_at6 m ρ c)

theorem arg12_at3 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  after_results_simp <;> rfl

theorem arg12_at4 : W4 m ρ c (Proc.devRef .tc main_arg12) = (m ((c : Thread nD τ).loc main_arg12)) :=
  (W4_of_ne m ρ c main_arg12 (by decide)).trans (arg12_at3 m ρ c)

theorem arg12_at5 : W5 m ρ c (Proc.devRef .tc main_arg12) = (m ((c : Thread nD τ).loc main_arg12)) := by
  show StableHlo.after hostOps1 (W4 m ρ c) (Proc.devRef .tc main_arg12) = _
  after_results_simp
  exact arg12_at4 m ρ c

theorem arg12_at6 : W6 m ρ c (Proc.devRef .tc main_arg12) = (m ((c : Thread nD τ).loc main_arg12)) :=
  (W6_of_ne m ρ c main_arg12 (by decide)).trans (arg12_at5 m ρ c)

theorem arg12_at7 : W7 m ρ c (Proc.devRef .tc main_arg12) = (m ((c : Thread nD τ).loc main_arg12)) :=
  (W7_of_ne m ρ c main_arg12 (by decide)).trans (arg12_at6 m ρ c)

theorem arg13_at3 : W3 m ρ c (Proc.devRef .tc main_arg13) = (m ((c : Thread nD τ).loc main_arg13)) := by
  show StableHlo.after hostOps0_2 (StableHlo.after hostOps0_1 (StableHlo.after hostOps0 (W0 m ρ c))) (Proc.devRef .tc main_arg13) = _
  after_results_simp <;> rfl

theorem arg13_at4 : W4 m ρ c (Proc.devRef .tc main_arg13) = (m ((c : Thread nD τ).loc main_arg13)) :=
  (W4_of_ne m ρ c main_arg13 (by decide)).trans (arg13_at3 m ρ c)

theorem arg13_at5 : W5 m ρ c (Proc.devRef .tc main_arg13) = (m ((c : Thread nD τ).loc main_arg13)) := by
  show StableHlo.after hostOps1 (W4 m ρ c) (Proc.devRef .tc main_arg13) = _
  after_results_simp
  exact arg13_at4 m ρ c

theorem arg13_at6 : W6 m ρ c (Proc.devRef .tc main_arg13) = (m ((c : Thread nD τ).loc main_arg13)) :=
  (W6_of_ne m ρ c main_arg13 (by decide)).trans (arg13_at5 m ρ c)

theorem arg13_at7 : W7 m ρ c (Proc.devRef .tc main_arg13) = (m ((c : Thread nD τ).loc main_arg13)) :=
  (W7_of_ne m ρ c main_arg13 (by decide)).trans (arg13_at6 m ρ c)

theorem arg14_at3 : W3 m ρ c (Proc.devRef .tc main_arg14) = (m ((c : Thread nD τ).loc main_arg14)) := by
  show StableHlo.after hostOps0_2 (StableHlo.after hostOps0_1 (StableHlo.after hostOps0 (W0 m ρ c))) (Proc.devRef .tc main_arg14) = _
  after_results_simp <;> rfl

theorem arg14_at4 : W4 m ρ c (Proc.devRef .tc main_arg14) = (m ((c : Thread nD τ).loc main_arg14)) :=
  (W4_of_ne m ρ c main_arg14 (by decide)).trans (arg14_at3 m ρ c)

theorem arg14_at5 : W5 m ρ c (Proc.devRef .tc main_arg14) = (m ((c : Thread nD τ).loc main_arg14)) := by
  show StableHlo.after hostOps1 (W4 m ρ c) (Proc.devRef .tc main_arg14) = _
  after_results_simp
  exact arg14_at4 m ρ c

theorem arg14_at6 : W6 m ρ c (Proc.devRef .tc main_arg14) = (m ((c : Thread nD τ).loc main_arg14)) :=
  (W6_of_ne m ρ c main_arg14 (by decide)).trans (arg14_at5 m ρ c)

theorem arg14_at7 : W7 m ρ c (Proc.devRef .tc main_arg14) = (m ((c : Thread nD τ).loc main_arg14)) :=
  (W7_of_ne m ρ c main_arg14 (by decide)).trans (arg14_at6 m ρ c)

theorem arg14_at8 : W8 m ρ c (Proc.devRef .tc main_arg14) = (m ((c : Thread nD τ).loc main_arg14)) := by
  show StableHlo.after hostOps3 (W7 m ρ c) (Proc.devRef .tc main_arg14) = _
  after_results_simp
  exact arg14_at7 m ρ c

theorem arg14_at9 : W9 m ρ c (Proc.devRef .tc main_arg14) = (m ((c : Thread nD τ).loc main_arg14)) :=
  (W9_of_ne m ρ c main_arg14 (by decide)).trans (arg14_at8 m ρ c)

theorem arg15_at3 : W3 m ρ c (Proc.devRef .tc main_arg15) = (m ((c : Thread nD τ).loc main_arg15)) := by
  show StableHlo.after hostOps0_2 (StableHlo.after hostOps0_1 (StableHlo.after hostOps0 (W0 m ρ c))) (Proc.devRef .tc main_arg15) = _
  after_results_simp <;> rfl

theorem arg15_at4 : W4 m ρ c (Proc.devRef .tc main_arg15) = (m ((c : Thread nD τ).loc main_arg15)) :=
  (W4_of_ne m ρ c main_arg15 (by decide)).trans (arg15_at3 m ρ c)

theorem arg15_at5 : W5 m ρ c (Proc.devRef .tc main_arg15) = (m ((c : Thread nD τ).loc main_arg15)) := by
  show StableHlo.after hostOps1 (W4 m ρ c) (Proc.devRef .tc main_arg15) = _
  after_results_simp
  exact arg15_at4 m ρ c

theorem arg15_at6 : W6 m ρ c (Proc.devRef .tc main_arg15) = (m ((c : Thread nD τ).loc main_arg15)) :=
  (W6_of_ne m ρ c main_arg15 (by decide)).trans (arg15_at5 m ρ c)

theorem arg15_at7 : W7 m ρ c (Proc.devRef .tc main_arg15) = (m ((c : Thread nD τ).loc main_arg15)) :=
  (W7_of_ne m ρ c main_arg15 (by decide)).trans (arg15_at6 m ρ c)

theorem arg15_at8 : W8 m ρ c (Proc.devRef .tc main_arg15) = (m ((c : Thread nD τ).loc main_arg15)) := by
  show StableHlo.after hostOps3 (W7 m ρ c) (Proc.devRef .tc main_arg15) = _
  after_results_simp
  exact arg15_at7 m ρ c

theorem arg15_at9 : W9 m ρ c (Proc.devRef .tc main_arg15) = (m ((c : Thread nD τ).loc main_arg15)) :=
  (W9_of_ne m ρ c main_arg15 (by decide)).trans (arg15_at8 m ρ c)

theorem arg15_at10 : W10 m ρ c (Proc.devRef .tc main_arg15) = (m ((c : Thread nD τ).loc main_arg15)) :=
  (W10_of_ne m ρ c main_arg15 (by decide)).trans (arg15_at9 m ρ c)

theorem src_at3 : W3 m ρ c (Proc.devRef .tc main_v3) = (srcOf (m ((c : Thread nD τ).loc main_arg1))) := by
  show StableHlo.after hostOps0_2 (StableHlo.after hostOps0_1 (StableHlo.after hostOps0 (W0 m ρ c))) (Proc.devRef .tc main_v3) = _
  after_results_simp <;> rfl

theorem src_at4 : W4 m ρ c (Proc.devRef .tc main_v3) = (srcOf (m ((c : Thread nD τ).loc main_arg1))) :=
  (W4_of_ne m ρ c main_v3 (by decide)).trans (src_at3 m ρ c)

theorem src_at5 : W5 m ρ c (Proc.devRef .tc main_v3) = (srcOf (m ((c : Thread nD τ).loc main_arg1))) := by
  show StableHlo.after hostOps1 (W4 m ρ c) (Proc.devRef .tc main_v3) = _
  after_results_simp
  exact src_at4 m ρ c

theorem src_at6 : W6 m ρ c (Proc.devRef .tc main_v3) = (srcOf (m ((c : Thread nD τ).loc main_arg1))) :=
  (W6_of_ne m ρ c main_v3 (by decide)).trans (src_at5 m ρ c)

theorem src_at7 : W7 m ρ c (Proc.devRef .tc main_v3) = (srcOf (m ((c : Thread nD τ).loc main_arg1))) :=
  (W7_of_ne m ρ c main_v3 (by decide)).trans (src_at6 m ρ c)

theorem src_at8 : W8 m ρ c (Proc.devRef .tc main_v3) = (srcOf (m ((c : Thread nD τ).loc main_arg1))) := by
  show StableHlo.after hostOps3 (W7 m ρ c) (Proc.devRef .tc main_v3) = _
  after_results_simp
  exact src_at7 m ρ c

theorem src_at9 : W9 m ρ c (Proc.devRef .tc main_v3) = (srcOf (m ((c : Thread nD τ).loc main_arg1))) :=
  (W9_of_ne m ρ c main_v3 (by decide)).trans (src_at8 m ρ c)

theorem src_at10 : W10 m ρ c (Proc.devRef .tc main_v3) = (srcOf (m ((c : Thread nD τ).loc main_arg1))) :=
  (W10_of_ne m ρ c main_v3 (by decide)).trans (src_at9 m ρ c)

theorem dst_at3 : W3 m ρ c (Proc.devRef .tc main_v6) = (dstOf (m ((c : Thread nD τ).loc main_arg1))) := by
  show StableHlo.after hostOps0_2 (StableHlo.after hostOps0_1 (StableHlo.after hostOps0 (W0 m ρ c))) (Proc.devRef .tc main_v6) = _
  after_results_simp <;> rfl

theorem dst_at4 : W4 m ρ c (Proc.devRef .tc main_v6) = (dstOf (m ((c : Thread nD τ).loc main_arg1))) :=
  (W4_of_ne m ρ c main_v6 (by decide)).trans (dst_at3 m ρ c)

theorem dst_at5 : W5 m ρ c (Proc.devRef .tc main_v6) = (dstOf (m ((c : Thread nD τ).loc main_arg1))) := by
  show StableHlo.after hostOps1 (W4 m ρ c) (Proc.devRef .tc main_v6) = _
  after_results_simp
  exact dst_at4 m ρ c

theorem dst_at6 : W6 m ρ c (Proc.devRef .tc main_v6) = (dstOf (m ((c : Thread nD τ).loc main_arg1))) :=
  (W6_of_ne m ρ c main_v6 (by decide)).trans (dst_at5 m ρ c)

theorem dst_at7 : W7 m ρ c (Proc.devRef .tc main_v6) = (dstOf (m ((c : Thread nD τ).loc main_arg1))) :=
  (W7_of_ne m ρ c main_v6 (by decide)).trans (dst_at6 m ρ c)

theorem dst_at8 : W8 m ρ c (Proc.devRef .tc main_v6) = (dstOf (m ((c : Thread nD τ).loc main_arg1))) := by
  show StableHlo.after hostOps3 (W7 m ρ c) (Proc.devRef .tc main_v6) = _
  after_results_simp
  exact dst_at7 m ρ c

theorem dst_at9 : W9 m ρ c (Proc.devRef .tc main_v6) = (dstOf (m ((c : Thread nD τ).loc main_arg1))) :=
  (W9_of_ne m ρ c main_v6 (by decide)).trans (dst_at8 m ρ c)

theorem dst_at10 : W10 m ρ c (Proc.devRef .tc main_v6) = (dstOf (m ((c : Thread nD τ).loc main_arg1))) :=
  (W10_of_ne m ρ c main_v6 (by decide)).trans (dst_at9 m ρ c)

/-! ## The edges' weights, one host stretch at a time

The operations before the first region come in three stretches. Read from any contents V: the last stretch makes the
edge weights from the node weights, the sources, the destinations and the vector of ones it finds; the middle one (the
select of the node weights) makes them from the comparison, the reciprocal square roots and the zero it finds, and leaves
the other three alone; the first makes all of those from the edge index. -/

theorem weights_of (V : Valuation τ sig (Elt Ideal)) :
    StableHlo.after hostOps0_2 V (Proc.devRef .tc main_v30)
      = mulf (F := Ideal) (φ := .f32) (mulf (F := Ideal) (φ := .f32) (Host.gather (α := Ideal .f32) Cert.ReferenceIdeal.gather_S100000_S1700000x1_S1700000_n_0_n_n_0_1_1 (V (Proc.devRef .tc main_v14)) (startOf (V (Proc.devRef .tc main_v3)))) (V (Proc.devRef .tc main_v7)))
          (Host.gather (α := Ideal .f32) Cert.ReferenceIdeal.gather_S100000_S1700000x1_S1700000_n_0_n_n_0_1_1 (V (Proc.devRef .tc main_v14)) (startOf (V (Proc.devRef .tc main_v6)))) := by
  after_results_simp
  rfl

theorem where_of (V : Valuation τ sig (Elt Ideal)) :
    StableHlo.after hostOps0_1 V (Proc.devRef .tc main_v14)
      = select (V (Proc.devRef .tc main_v12)) (V (Proc.devRef .tc main_v13)) (broadcastInDim (α := Ideal .f32) S100000 ![] bcast_S_S100000 (id (V (Proc.devRef .tc main_cst_2)))) := by
  after_results_simp
  simp only [TRef.toBuf, TRef.ofBuf, cast_eq]

theorem where_keeps_src (V : Valuation τ sig (Elt Ideal)) : StableHlo.after hostOps0_1 V (Proc.devRef .tc main_v3) = (V (Proc.devRef .tc main_v3)) := by
  after_results_simp
theorem where_keeps_dst (V : Valuation τ sig (Elt Ideal)) : StableHlo.after hostOps0_1 V (Proc.devRef .tc main_v6) = (V (Proc.devRef .tc main_v6)) := by
  after_results_simp
theorem where_keeps_ones (V : Valuation τ sig (Elt Ideal)) : StableHlo.after hostOps0_1 V (Proc.devRef .tc main_v7) = (V (Proc.devRef .tc main_v7)) := by
  after_results_simp

theorem src_at1 : W1 m ρ c (Proc.devRef .tc main_v3) = (srcOf (m ((c : Thread nD τ).loc main_arg1))) := by
  show StableHlo.after hostOps0 (W0 m ρ c) (Proc.devRef .tc main_v3) = _
  after_results_simp <;> rfl
theorem dst_at1 : W1 m ρ c (Proc.devRef .tc main_v6) = (dstOf (m ((c : Thread nD τ).loc main_arg1))) := by
  show StableHlo.after hostOps0 (W0 m ρ c) (Proc.devRef .tc main_v6) = _
  after_results_simp <;> rfl
theorem ones_at1 : W1 m ρ c (Proc.devRef .tc main_v7) = broadcastInDim S1700000 ![] bcast_S_S1700000 (constant (F := Ideal) S_ .f32 0x3F800000#32) := by
  show StableHlo.after hostOps0 (W0 m ρ c) (Proc.devRef .tc main_v7) = _
  after_results_simp <;> rfl
theorem positive_at1 : W1 m ρ c (Proc.devRef .tc main_v12) = cmpf (F := Ideal) .ogt (degOf (dstOf (m ((c : Thread nD τ).loc main_arg1)))) (broadcastInDim S100000 ![] bcast_S_S100000 (constant (F := Ideal) S_ .f32 0x00000000#32)) := by
  show StableHlo.after hostOps0 (W0 m ρ c) (Proc.devRef .tc main_v12) = _
  after_results_simp <;> rfl
theorem rsqrt_at1 : W1 m ρ c (Proc.devRef .tc main_v13) = Host.rsqrt (F := Ideal) (φ := .f32) (degOf (dstOf (m ((c : Thread nD τ).loc main_arg1)))) := by
  show StableHlo.after hostOps0 (W0 m ρ c) (Proc.devRef .tc main_v13) = _
  after_results_simp <;> rfl
theorem zero_at1 : W1 m ρ c (Proc.devRef .tc main_cst_2) = constant (F := Ideal) S_ .f32 0x00000000#32 := by
  show StableHlo.after hostOps0 (W0 m ρ c) (Proc.devRef .tc main_cst_2) = _
  after_results_simp <;> rfl

/-- Before the first region the weight buffer holds the edges' weights. -/
theorem nrm_at3 : W3 m ρ c (Proc.devRef .tc main_v30) = (normOf (srcOf (m ((c : Thread nD τ).loc main_arg1))) (dstOf (m ((c : Thread nD τ).loc main_arg1)))) := by
  show StableHlo.after hostOps0_2 (W2 m ρ c) (Proc.devRef .tc main_v30) = _
  rw [weights_of]
  have e14 : W2 m ρ c (Proc.devRef .tc main_v14) = dinvOf (dstOf (m ((c : Thread nD τ).loc main_arg1))) := by
    show StableHlo.after hostOps0_1 (W1 m ρ c) (Proc.devRef .tc main_v14) = _
    rw [where_of, positive_at1, rsqrt_at1, zero_at1]
    rfl
  have e3 : W2 m ρ c (Proc.devRef .tc main_v3) = (srcOf (m ((c : Thread nD τ).loc main_arg1))) := by
    show StableHlo.after hostOps0_1 (W1 m ρ c) (Proc.devRef .tc main_v3) = _
    rw [where_keeps_src, src_at1]
  have e6 : W2 m ρ c (Proc.devRef .tc main_v6) = (dstOf (m ((c : Thread nD τ).loc main_arg1))) := by
    show StableHlo.after hostOps0_1 (W1 m ρ c) (Proc.devRef .tc main_v6) = _
    rw [where_keeps_dst, dst_at1]
  have e7 : W2 m ρ c (Proc.devRef .tc main_v7) = broadcastInDim S1700000 ![] bcast_S_S1700000 (constant (F := Ideal) S_ .f32 0x3F800000#32) := by
    show StableHlo.after hostOps0_1 (W1 m ρ c) (Proc.devRef .tc main_v7) = _
    rw [where_keeps_ones, ones_at1]
  rw [e14, e3, e6, e7]
  rfl

theorem nrm_at4 : W4 m ρ c (Proc.devRef .tc main_v30) = (normOf (srcOf (m ((c : Thread nD τ).loc main_arg1))) (dstOf (m ((c : Thread nD τ).loc main_arg1)))) :=
  (W4_of_ne m ρ c main_v30 (by decide)).trans (nrm_at3 m ρ c)

theorem nrm_at5 : W5 m ρ c (Proc.devRef .tc main_v30) = (normOf (srcOf (m ((c : Thread nD τ).loc main_arg1))) (dstOf (m ((c : Thread nD τ).loc main_arg1)))) := by
  show StableHlo.after hostOps1 (W4 m ρ c) (Proc.devRef .tc main_v30) = _
  after_results_simp
  exact nrm_at4 m ρ c

theorem nrm_at6 : W6 m ρ c (Proc.devRef .tc main_v30) = (normOf (srcOf (m ((c : Thread nD τ).loc main_arg1))) (dstOf (m ((c : Thread nD τ).loc main_arg1)))) :=
  (W6_of_ne m ρ c main_v30 (by decide)).trans (nrm_at5 m ρ c)

theorem nrm_at7 : W7 m ρ c (Proc.devRef .tc main_v30) = (normOf (srcOf (m ((c : Thread nD τ).loc main_arg1))) (dstOf (m ((c : Thread nD τ).loc main_arg1)))) :=
  (W7_of_ne m ρ c main_v30 (by decide)).trans (nrm_at6 m ρ c)

theorem nrm_at8 : W8 m ρ c (Proc.devRef .tc main_v30) = (normOf (srcOf (m ((c : Thread nD τ).loc main_arg1))) (dstOf (m ((c : Thread nD τ).loc main_arg1)))) := by
  show StableHlo.after hostOps3 (W7 m ρ c) (Proc.devRef .tc main_v30) = _
  after_results_simp
  exact nrm_at7 m ρ c

theorem nrm_at9 : W9 m ρ c (Proc.devRef .tc main_v30) = (normOf (srcOf (m ((c : Thread nD τ).loc main_arg1))) (dstOf (m ((c : Thread nD τ).loc main_arg1)))) :=
  (W9_of_ne m ρ c main_v30 (by decide)).trans (nrm_at8 m ρ c)

theorem nrm_at10 : W10 m ρ c (Proc.devRef .tc main_v30) = (normOf (srcOf (m ((c : Thread nD τ).loc main_arg1))) (dstOf (m ((c : Thread nD τ).loc main_arg1)))) :=
  (W10_of_ne m ρ c main_v30 (by decide)).trans (nrm_at9 m ρ c)

/-! ## The stages, in order -/

/-- After region 0: the first product. -/
theorem feat1 : W4 m ρ c (Proc.devRef .tc main_v31) = (dot128 (m ((c : Thread nD τ).loc main_arg0)) (m ((c : Thread nD τ).loc main_arg2))) := by
  have h : W4 m ρ c (Proc.devRef .tc main_v31) = dot128 (W3 m ρ c (Proc.devRef .tc main_arg0)) (W3 m ρ c (Proc.devRef .tc main_arg2)) :=
    (W4_arr m ρ c 2).trans (Product0.final (V3 m ρ) c)
  rw [h, arg0_at3, arg2_at3]

/-- After the host stretch that follows: one round of passing of the first product. -/
theorem agg1 : W5 m ρ c (Proc.devRef .tc main_v44) = (pass128 (dot128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) := by
  have h : W5 m ρ c (Proc.devRef .tc main_v44) = pass128 (W4 m ρ c (Proc.devRef .tc main_v31)) (W4 m ρ c (Proc.devRef .tc main_v3)) (W4 m ρ c (Proc.devRef .tc main_v6)) (W4 m ρ c (Proc.devRef .tc main_v30)) := by
    show StableHlo.after hostOps1 (W4 m ρ c) (Proc.devRef .tc main_v44) = _
    after_results_simp
    rfl
  rw [h, feat1, src_at4, dst_at4, nrm_at4]

theorem row45 : W5 m ρ c (Proc.devRef .tc main_v45) = asRow128 (m ((c : Thread nD τ).loc main_arg3)) := by
  have h : W5 m ρ c (Proc.devRef .tc main_v45) = asRow128 (W4 m ρ c (Proc.devRef .tc main_arg3)) := by
    show StableHlo.after hostOps1 (W4 m ρ c) (Proc.devRef .tc main_v45) = _
    after_results_simp
    rfl
  rw [h, arg3_at4]

theorem row46 : W5 m ρ c (Proc.devRef .tc main_v46) = asRow128 (m ((c : Thread nD τ).loc main_arg4)) := by
  have h : W5 m ρ c (Proc.devRef .tc main_v46) = asRow128 (W4 m ρ c (Proc.devRef .tc main_arg4)) := by
    show StableHlo.after hostOps1 (W4 m ρ c) (Proc.devRef .tc main_v46) = _
    after_results_simp
    rfl
  rw [h, arg4_at4]

theorem row47 : W5 m ρ c (Proc.devRef .tc main_v47) = asRow128 (m ((c : Thread nD τ).loc main_arg5)) := by
  have h : W5 m ρ c (Proc.devRef .tc main_v47) = asRow128 (W4 m ρ c (Proc.devRef .tc main_arg5)) := by
    show StableHlo.after hostOps1 (W4 m ρ c) (Proc.devRef .tc main_v47) = _
    after_results_simp
    rfl
  rw [h, arg5_at4]

theorem row48 : W5 m ρ c (Proc.devRef .tc main_v48) = asRow128 (m ((c : Thread nD τ).loc main_arg6)) := by
  have h : W5 m ρ c (Proc.devRef .tc main_v48) = asRow128 (W4 m ρ c (Proc.devRef .tc main_arg6)) := by
    show StableHlo.after hostOps1 (W4 m ρ c) (Proc.devRef .tc main_v48) = _
    after_results_simp
    rfl
  rw [h, arg6_at4]

theorem row49 : W5 m ρ c (Proc.devRef .tc main_v49) = asRow128 (m ((c : Thread nD τ).loc main_arg7)) := by
  have h : W5 m ρ c (Proc.devRef .tc main_v49) = asRow128 (W4 m ρ c (Proc.devRef .tc main_arg7)) := by
    show StableHlo.after hostOps1 (W4 m ρ c) (Proc.devRef .tc main_v49) = _
    after_results_simp
    rfl
  rw [h, arg7_at4]

/-- After region 1: the first normalisation stage. -/
theorem act1 : W6 m ρ c (Proc.devRef .tc main_v50) = (normalized (pass128 (dot128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg3))) (asRow128 (m ((c : Thread nD τ).loc main_arg4))) (asRow128 (m ((c : Thread nD τ).loc main_arg5))) (asRow128 (m ((c : Thread nD τ).loc main_arg6))) (asRow128 (m ((c : Thread nD τ).loc main_arg7)))) := by
  have h : W6 m ρ c (Proc.devRef .tc main_v50) = normalized (W5 m ρ c (Proc.devRef .tc main_v44)) (W5 m ρ c (Proc.devRef .tc main_v45)) (W5 m ρ c (Proc.devRef .tc main_v46)) (W5 m ρ c (Proc.devRef .tc main_v47)) (W5 m ρ c (Proc.devRef .tc main_v48)) (W5 m ρ c (Proc.devRef .tc main_v49)) :=
    (W6_arr m ρ c 6).trans (Norm1.final (V5 m ρ) c)
  rw [h, agg1, row45, row46, row47, row48, row49]

/-- After region 2: the second product. -/
theorem feat2 : W7 m ρ c (Proc.devRef .tc main_v51) = (dot128 (normalized (pass128 (dot128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg3))) (asRow128 (m ((c : Thread nD τ).loc main_arg4))) (asRow128 (m ((c : Thread nD τ).loc main_arg5))) (asRow128 (m ((c : Thread nD τ).loc main_arg6))) (asRow128 (m ((c : Thread nD τ).loc main_arg7)))) (m ((c : Thread nD τ).loc main_arg8))) := by
  have h : W7 m ρ c (Proc.devRef .tc main_v51) = dot128 (W6 m ρ c (Proc.devRef .tc main_v50)) (W6 m ρ c (Proc.devRef .tc main_arg8)) :=
    (W7_arr m ρ c 2).trans (Product2.final (V6 m ρ) c)
  rw [h, act1, arg8_at6]

/-- After the next host stretch: one round of passing of the second product. -/
theorem agg2 : W8 m ρ c (Proc.devRef .tc main_v64) = (pass128 (dot128 (normalized (pass128 (dot128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg3))) (asRow128 (m ((c : Thread nD τ).loc main_arg4))) (asRow128 (m ((c : Thread nD τ).loc main_arg5))) (asRow128 (m ((c : Thread nD τ).loc main_arg6))) (asRow128 (m ((c : Thread nD τ).loc main_arg7)))) (m ((c : Thread nD τ).loc main_arg8))) (srcOf (m ((c : Thread nD τ).loc main_arg1))) (dstOf (m ((c : Thread nD τ).loc main_arg1))) (normOf (srcOf (m ((c : Thread nD τ).loc main_arg1))) (dstOf (m ((c : Thread nD τ).loc main_arg1))))) := by
  have h : W8 m ρ c (Proc.devRef .tc main_v64) = pass128 (W7 m ρ c (Proc.devRef .tc main_v51)) (W7 m ρ c (Proc.devRef .tc main_v3)) (W7 m ρ c (Proc.devRef .tc main_v6)) (W7 m ρ c (Proc.devRef .tc main_v30)) := by
    show StableHlo.after hostOps3 (W7 m ρ c) (Proc.devRef .tc main_v64) = _
    after_results_simp
    rfl
  rw [h, feat2, src_at7, dst_at7, nrm_at7]

theorem row65 : W8 m ρ c (Proc.devRef .tc main_v65) = asRow128 (m ((c : Thread nD τ).loc main_arg9)) := by
  have h : W8 m ρ c (Proc.devRef .tc main_v65) = asRow128 (W7 m ρ c (Proc.devRef .tc main_arg9)) := by
    show StableHlo.after hostOps3 (W7 m ρ c) (Proc.devRef .tc main_v65) = _
    after_results_simp
    rfl
  rw [h, arg9_at7]

theorem row66 : W8 m ρ c (Proc.devRef .tc main_v66) = asRow128 (m ((c : Thread nD τ).loc main_arg10)) := by
  have h : W8 m ρ c (Proc.devRef .tc main_v66) = asRow128 (W7 m ρ c (Proc.devRef .tc main_arg10)) := by
    show StableHlo.after hostOps3 (W7 m ρ c) (Proc.devRef .tc main_v66) = _
    after_results_simp
    rfl
  rw [h, arg10_at7]

theorem row67 : W8 m ρ c (Proc.devRef .tc main_v67) = asRow128 (m ((c : Thread nD τ).loc main_arg11)) := by
  have h : W8 m ρ c (Proc.devRef .tc main_v67) = asRow128 (W7 m ρ c (Proc.devRef .tc main_arg11)) := by
    show StableHlo.after hostOps3 (W7 m ρ c) (Proc.devRef .tc main_v67) = _
    after_results_simp
    rfl
  rw [h, arg11_at7]

theorem row68 : W8 m ρ c (Proc.devRef .tc main_v68) = asRow128 (m ((c : Thread nD τ).loc main_arg12)) := by
  have h : W8 m ρ c (Proc.devRef .tc main_v68) = asRow128 (W7 m ρ c (Proc.devRef .tc main_arg12)) := by
    show StableHlo.after hostOps3 (W7 m ρ c) (Proc.devRef .tc main_v68) = _
    after_results_simp
    rfl
  rw [h, arg12_at7]

theorem row69 : W8 m ρ c (Proc.devRef .tc main_v69) = asRow128 (m ((c : Thread nD τ).loc main_arg13)) := by
  have h : W8 m ρ c (Proc.devRef .tc main_v69) = asRow128 (W7 m ρ c (Proc.devRef .tc main_arg13)) := by
    show StableHlo.after hostOps3 (W7 m ρ c) (Proc.devRef .tc main_v69) = _
    after_results_simp
    rfl
  rw [h, arg13_at7]

/-- After region 3: the second normalisation stage. -/
theorem act2 : W9 m ρ c (Proc.devRef .tc main_v70) = (normalized (pass128 (dot128 (normalized (pass128 (dot128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg3))) (asRow128 (m ((c : Thread nD τ).loc main_arg4))) (asRow128 (m ((c : Thread nD τ).loc main_arg5))) (asRow128 (m ((c : Thread nD τ).loc main_arg6))) (asRow128 (m ((c : Thread nD τ).loc main_arg7)))) (m ((c : Thread nD τ).loc main_arg8))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg9))) (asRow128 (m ((c : Thread nD τ).loc main_arg10))) (asRow128 (m ((c : Thread nD τ).loc main_arg11))) (asRow128 (m ((c : Thread nD τ).loc main_arg12))) (asRow128 (m ((c : Thread nD τ).loc main_arg13)))) := by
  have h : W9 m ρ c (Proc.devRef .tc main_v70) = normalized (W8 m ρ c (Proc.devRef .tc main_v64)) (W8 m ρ c (Proc.devRef .tc main_v65)) (W8 m ρ c (Proc.devRef .tc main_v66)) (W8 m ρ c (Proc.devRef .tc main_v67)) (W8 m ρ c (Proc.devRef .tc main_v68)) (W8 m ρ c (Proc.devRef .tc main_v69)) :=
    (W9_arr m ρ c 6).trans (Norm3.final (V8 m ρ) c)
  rw [h, agg2, row65, row66, row67, row68, row69]

/-- After region 4: the third product. -/
theorem feat3 : W10 m ρ c (Proc.devRef .tc main_v71) = (dot64 (normalized (pass128 (dot128 (normalized (pass128 (dot128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg3))) (asRow128 (m ((c : Thread nD τ).loc main_arg4))) (asRow128 (m ((c : Thread nD τ).loc main_arg5))) (asRow128 (m ((c : Thread nD τ).loc main_arg6))) (asRow128 (m ((c : Thread nD τ).loc main_arg7)))) (m ((c : Thread nD τ).loc main_arg8))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg9))) (asRow128 (m ((c : Thread nD τ).loc main_arg10))) (asRow128 (m ((c : Thread nD τ).loc main_arg11))) (asRow128 (m ((c : Thread nD τ).loc main_arg12))) (asRow128 (m ((c : Thread nD τ).loc main_arg13)))) (m ((c : Thread nD τ).loc main_arg14))) := by
  have h : W10 m ρ c (Proc.devRef .tc main_v71) = dot64 (W9 m ρ c (Proc.devRef .tc main_v70)) (W9 m ρ c (Proc.devRef .tc main_arg14)) :=
    (W10_arr m ρ c 2).trans (Product4.final (V9 m ρ) c)
  rw [h, act2, arg14_at9]

/-- After the last host stretch: one round of passing of the third product. -/
theorem agg3 : W11 m ρ c (Proc.devRef .tc main_v84) = (pass64 (dot64 (normalized (pass128 (dot128 (normalized (pass128 (dot128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg3))) (asRow128 (m ((c : Thread nD τ).loc main_arg4))) (asRow128 (m ((c : Thread nD τ).loc main_arg5))) (asRow128 (m ((c : Thread nD τ).loc main_arg6))) (asRow128 (m ((c : Thread nD τ).loc main_arg7)))) (m ((c : Thread nD τ).loc main_arg8))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg9))) (asRow128 (m ((c : Thread nD τ).loc main_arg10))) (asRow128 (m ((c : Thread nD τ).loc main_arg11))) (asRow128 (m ((c : Thread nD τ).loc main_arg12))) (asRow128 (m ((c : Thread nD τ).loc main_arg13)))) (m ((c : Thread nD τ).loc main_arg14))) (srcOf (m ((c : Thread nD τ).loc main_arg1))) (dstOf (m ((c : Thread nD τ).loc main_arg1))) (normOf (srcOf (m ((c : Thread nD τ).loc main_arg1))) (dstOf (m ((c : Thread nD τ).loc main_arg1))))) := by
  have h : W11 m ρ c (Proc.devRef .tc main_v84) = pass64 (W10 m ρ c (Proc.devRef .tc main_v71)) (W10 m ρ c (Proc.devRef .tc main_v3)) (W10 m ρ c (Proc.devRef .tc main_v6)) (W10 m ρ c (Proc.devRef .tc main_v30)) := by
    show StableHlo.after hostOps5 (W10 m ρ c) (Proc.devRef .tc main_v84) = _
    after_results_simp
    rfl
  rw [h, feat3, src_at10, dst_at10, nrm_at10]

theorem row85 : W11 m ρ c (Proc.devRef .tc main_v85) = asRow64 (m ((c : Thread nD τ).loc main_arg15)) := by
  have h : W11 m ρ c (Proc.devRef .tc main_v85) = asRow64 (W10 m ρ c (Proc.devRef .tc main_arg15)) := by
    show StableHlo.after hostOps5 (W10 m ρ c) (Proc.devRef .tc main_v85) = _
    after_results_simp
    rfl
  rw [h, arg15_at10]

/-- After region 5: the result buffer holds the bias stage of the third round. -/
theorem out_eq : W12 m ρ c (Proc.devRef .tc main_v86) = (biased (pass64 (dot64 (normalized (pass128 (dot128 (normalized (pass128 (dot128 (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg3))) (asRow128 (m ((c : Thread nD τ).loc main_arg4))) (asRow128 (m ((c : Thread nD τ).loc main_arg5))) (asRow128 (m ((c : Thread nD τ).loc main_arg6))) (asRow128 (m ((c : Thread nD τ).loc main_arg7)))) (m ((c : Thread nD τ).loc main_arg8))) (srcOf (m ((c : Thread nD τ).loc main_arg1))) (dstOf (m ((c : Thread nD τ).loc main_arg1))) (normOf (srcOf (m ((c : Thread nD τ).loc main_arg1))) (dstOf (m ((c : Thread nD τ).loc main_arg1))))) (asRow128 (m ((c : Thread nD τ).loc main_arg9))) (asRow128 (m ((c : Thread nD τ).loc main_arg10))) (asRow128 (m ((c : Thread nD τ).loc main_arg11))) (asRow128 (m ((c : Thread nD τ).loc main_arg12))) (asRow128 (m ((c : Thread nD τ).loc main_arg13)))) (m ((c : Thread nD τ).loc main_arg14))) (srcOf (m ((c : Thread nD τ).loc main_arg1))) (dstOf (m ((c : Thread nD τ).loc main_arg1))) (normOf (srcOf (m ((c : Thread nD τ).loc main_arg1))) (dstOf (m ((c : Thread nD τ).loc main_arg1))))) (asRow64 (m ((c : Thread nD τ).loc main_arg15)))) := by
  have h : W12 m ρ c (Proc.devRef .tc main_v86) = biased (W11 m ρ c (Proc.devRef .tc main_v84)) (W11 m ρ c (Proc.devRef .tc main_v85)) :=
    (W12_arr m ρ c 2).trans (Bias5.final (V11 m ρ) c)
  rw [h, agg3, row85]

/-- The kernel's result: the reference's composition of passing rounds and products, with the kernel's own stages —
    the normalisation and bias stages of the arguments laid out as rows — between them. -/
theorem value : W12 m ρ c (Proc.devRef .tc main_v86)
    = networkWith (fun y => normalized y (asRow128 (m ((c : Thread nD τ).loc main_arg3))) (asRow128 (m ((c : Thread nD τ).loc main_arg4))) (asRow128 (m ((c : Thread nD τ).loc main_arg5))) (asRow128 (m ((c : Thread nD τ).loc main_arg6))) (asRow128 (m ((c : Thread nD τ).loc main_arg7)))) (fun y => normalized y (asRow128 (m ((c : Thread nD τ).loc main_arg9))) (asRow128 (m ((c : Thread nD τ).loc main_arg10))) (asRow128 (m ((c : Thread nD τ).loc main_arg11))) (asRow128 (m ((c : Thread nD τ).loc main_arg12))) (asRow128 (m ((c : Thread nD τ).loc main_arg13))))
        (fun y => biased y (asRow64 (m ((c : Thread nD τ).loc main_arg15)))) (fun y => dot128 y (m ((c : Thread nD τ).loc main_arg2))) (fun y => dot128 y (m ((c : Thread nD τ).loc main_arg8))) (fun y => dot64 y (m ((c : Thread nD τ).loc main_arg14)))
        (m ((c : Thread nD τ).loc main_arg0)) (m ((c : Thread nD τ).loc main_arg1)) :=
  (out_eq m ρ c).trans rfl

end Cert.KernelIdeal.Result

end
-- ==== Proof.RefValue.lean ====
/-
  The reference's result. Its run ends with the result buffer at one long term of the sixteen arguments; that term is the
  composition `network` of the message-passing operations, the products, the normalisation chains and the bias: the
  definitions unfold to it, operation for operation.
-/
import proofs.«173730_j47304769798728_1_alg».proof.Proof.RefRun
import proofs.«173730_j47304769798728_1_alg».proof.Proof.Passing

set_option maxRecDepth 16384

noncomputable section

namespace Cert.Passing

open Cert.ReferenceIdeal Cert.ReferenceIdeal.Gen Idealize.ShloMosaic Idealize.ShloMosaic.TcCoe Idealize.SL.Sem Idealize.ShloMosaic.StableHlo

variable {F : FTy → Type} [FloatOps F]

/-- The term the reference's run ends at is `network` of the arguments: the definitions unfold to it. -/
theorem reference_eq (m : (ℓ : Loc nD τ sig) → Buf (Elt F) ℓ) (c : Dev nD) :
    Cert.ReferenceIdeal.ValueP.res_main_v109 m c
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold Cert.ReferenceIdeal.ValueP.res_main_v109 network networkWith normRef biasRef pass128 pass64 dot128 dot64 normOf dinvOf degOf startOf srcOf dstOf
  rfl

end Cert.Passing

end
-- ==== Proof.LibBcast.lean ====
/-
  Host broadcasts and a row reshape, read at an index.

  A vector of length `a` broadcast first to an `a × 1` column and then across `b` columns reads, at `(i, c)`, the vector
  at `i`; a vector of length `b` broadcast first to a `1 × b` row and then down `a` rows reads, at `(i, c)`, the vector
  at `c`; a scalar broadcast to any shape reads the scalar everywhere; and a `1 × n` array reshaped to length `n`
  reads, at `j`, the array at `(0, j)`.  A broadcast reads its operand at the coordinates its axes are sent to, and at
  `0` on an operand axis of extent one; when the extent of a broadcast axis happens to be one as well, the coordinate
  read is below one, hence `0`, and the two descriptions agree.  A reshape keeps the row-major position.
-/
import Idealize.ShloMosaic.Lib.Pipeline.Value
import Idealize.ShloMosaic.Lib.ValueIdx

namespace Cert.LibBcast

open Idealize.ShloMosaic Idealize.ShloMosaic.ValueIdx

/-- A vector broadcast to a column and then across `b` columns, read at `(i, c)`, is the vector at `i`. -/
theorem rows_apply {α : Type} {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![a, 1]⟩ ![0] h1 v) (ix2 i c) = v (ix1 i) := by
  have hi : i.val < a := i.isLt
  have e2 := broadcastInDim_apply ![0, 1] h2 (broadcastInDim ⟨2, ![a, 1]⟩ ![0] h1 v) (ix2 i c) (ix2 i (0 : Fin 1)) (by
    intro d
    match d with
    | ⟨0, _⟩ =>
      show i.val = if a = 1 then 0 else i.val
      split
      · omega
      · rfl
    | ⟨1, _⟩ =>
      show 0 = if 1 = 1 then 0 else c.val
      exact (if_pos rfl).symm)
  have e1 := broadcastInDim_apply ![0] h1 v (ix2 i (0 : Fin 1)) (ix1 i) (by
    intro d
    match d with
    | ⟨0, _⟩ =>
      show i.val = if a = 1 then 0 else i.val
      split
      · omega
      · rfl)
  exact e2.trans e1

/-- A vector broadcast to a row and then down `a` rows, read at `(i, c)`, is the vector at `c`. -/
theorem cols_apply {α : Type} {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (c : Fin b) :
    broadcastInDim ⟨2, ![a, b]⟩ ![0, 1] h2 (broadcastInDim ⟨2, ![1, b]⟩ ![1] h1 v) (ix2 i c) = v (ix1 c) := by
  have hc : c.val < b := c.isLt
  have e2 := broadcastInDim_apply ![0, 1] h2 (broadcastInDim ⟨2, ![1, b]⟩ ![1] h1 v) (ix2 i c) (ix2 (0 : Fin 1) c) (by
    intro d
    match d with
    | ⟨0, _⟩ =>
      show 0 = if 1 = 1 then 0 else i.val
      exact (if_pos rfl).symm
    | ⟨1, _⟩ =>
      show c.val = if b = 1 then 0 else c.val
      split
      · omega
      · rfl)
  have e1 := broadcastInDim_apply ![1] h1 v (ix2 (0 : Fin 1) c) (ix1 c) (by
    intro d
    match d with
    | ⟨0, _⟩ =>
      show c.val = if b = 1 then 0 else c.val
      split
      · omega
      · rfl)
  exact e2.trans e1

/-- A scalar broadcast to any shape reads the scalar at every index. -/
theorem scalar_apply {α : Type} (T : Shape) (v : (⟨0, ![]⟩ : Shape).Idx → α)
    (h : (⟨0, ![]⟩ : Shape).BroadcastsInDim T (![] : Fin 0 → Fin T.rank)) (i : T.Idx) :
    broadcastInDim T ![] h v i = v ix0 :=
  broadcastInDim_apply ![] h v i ix0 fun d => d.elim0

/-- A `1 × n` array reshaped to length `n` reads, at `j`, the array at `(0, j)`: the same row-major position. -/
theorem row_reshape_apply {α : Type} {n : ℕ} (x : (⟨2, ![1, n]⟩ : Shape).Idx → α)
    (h : (⟨2, ![1, n]⟩ : Shape).ShapeCasts ⟨1, ![n]⟩) (j : Fin n) :
    shapeCast ⟨1, ![n]⟩ x h (ix1 j) = x (ix2 (0 : Fin 1) j) :=
  shapeCast_apply x h (ix1 j) (ix2 (0 : Fin 1) j) (by
    rw [Shape.rowMajor_val_two, Shape.rowMajor_val_one]
    show 0 * n + j.val = j.val
    omega)

end Cert.LibBcast
-- ==== Proof.StageBridge.lean ====
/-
  The host's stages are the kernel's. The reference adds a bias vector, subtracts a mean vector, multiplies by
  scale · rsqrt (variance + ε) and adds a shift vector, each vector broadcast first to a 1 × 128 row and then down the
  100000 rows, and takes the maximum with a zero array. At entry (r, c) every such broadcast reads its vector at c, the
  zero array reads zero, and the host's rsqrt is the kernel's on the extended reals: so the entry is
  max (((x (r, c) + b c) − μ c) · (s c · rsqrt (v c + ε)) + β c, 0), the normalisation stage of the array and of the five
  vectors laid out as rows. The last bias is the same with one vector of length 64.
-/
import proofs.«173730_j47304769798728_1_alg».proof.Proof.Passing
import proofs.«173730_j47304769798728_1_alg».proof.Proof.Stages
import proofs.«173730_j47304769798728_1_alg».proof.Proof.LibBcast
import Idealize.ShloMosaic.Lib.Pipeline.Value
import Idealize.ShloMosaic.Lib.ValueIdx
import Idealize.ShloMosaic.PureOps.Ideal

set_option maxRecDepth 16384

noncomputable section

namespace Cert.StageBridge

open Cert.ReferenceIdeal Cert.ReferenceIdeal.Gen Idealize.ShloMosaic Idealize.ShloMosaic.ValueIdx Cert.Passing Cert.Stages

/-- The host's normalisation chain is the normalisation stage of the array and the vectors as rows. -/
theorem normRef_eq (x : FVec Ideal S100000x128 .f32) (b s β μ v : FVec Ideal S128 .f32) :
    normRef (F := Ideal) x b s β μ v = normalized x (asRow128 b) (asRow128 s) (asRow128 β) (asRow128 μ) (asRow128 v) := by
  funext i
  obtain ⟨p, q, rfl⟩ : ∃ (p : Fin 100000) (q : Fin 128), i = ix2 p q := ⟨i 0, i 1, eq_ix2 i⟩
  unfold normRef normalized normPoint
  have hrow : ∀ w : FVec Ideal S128 .f32,
      broadcastInDim S100000x128 ![0, 1] bcast_S1x128_S100000x128_0_1 (broadcastInDim S1x128 ![1] bcast_S128_S1x128_1 w) (ix2 p q)
        = w (ix1 q) :=
    fun w => Cert.LibBcast.cols_apply w _ _ p q
  have hzero : broadcastInDim S100000x128 ![] bcast_S_S100000x128 (constant (F := Ideal) S_ .f32 0x00000000#32) (ix2 p q)
      = FloatOps.ofBits .f32 0x00000000#32 :=
    Cert.LibBcast.scalar_apply _ _ _ _
  have heps : ∀ k : S128.Idx, broadcastInDim S128 ![] bcast_S_S128 (constant (F := Ideal) S_ .f32 0x3727C5AC#32) k
      = FloatOps.ofBits .f32 0x3727C5AC#32 :=
    fun k => Cert.LibBcast.scalar_apply _ _ _ _
  simp only [Idealize.ShloMosaic.maximumf, Idealize.ShloMosaic.addf, Idealize.ShloMosaic.subf, Idealize.ShloMosaic.mulf,
    Idealize.ShloMosaic.Host.rsqrt, hrow, hzero, heps, asRow128_apply]
  rfl

/-- The host's last bias is the bias stage of the array and the vector as a row. -/
theorem biasRef_eq (x : FVec Ideal S100000x64 .f32) (b : FVec Ideal S64 .f32) :
    biasRef (F := Ideal) x b = biased x (asRow64 b) := by
  funext i
  obtain ⟨p, q, rfl⟩ : ∃ (p : Fin 100000) (q : Fin 64), i = ix2 p q := ⟨i 0, i 1, eq_ix2 i⟩
  unfold biasRef biased
  have hrow : broadcastInDim S100000x64 ![0, 1] bcast_S1x64_S100000x64_0_1 (broadcastInDim S1x64 ![1] bcast_S64_S1x64_1 b) (ix2 p q)
      = b (ix1 q) :=
    Cert.LibBcast.cols_apply b _ _ p q
  simp only [Idealize.ShloMosaic.addf, hrow, asRow64_apply]

/-- The reference's whole computation is the composition of passing rounds and products with the kernel's stages between
    them: stage by stage the host's chain is the kernel's stage. -/
theorem network_eq (a0 : FVec Ideal S100000x128 .f32) (a1 : IVec S2x1600000 32) (a2 : FVec Ideal S128x128 .f32) (a3 a4 a5 a6 a7 : FVec Ideal S128 .f32) (a8 : FVec Ideal S128x128 .f32) (a9 a10 a11 a12 a13 : FVec Ideal S128 .f32) (a14 : FVec Ideal S128x64 .f32) (a15 : FVec Ideal S64 .f32) :
    network (F := Ideal) a0 a1 a2 a3 a4 a5 a6 a7 a8 a9 a10 a11 a12 a13 a14 a15
      = networkWith (fun y => normalized y (asRow128 a3) (asRow128 a4) (asRow128 a5) (asRow128 a6) (asRow128 a7))
          (fun y => normalized y (asRow128 a9) (asRow128 a10) (asRow128 a11) (asRow128 a12) (asRow128 a13))
          (fun y => biased y (asRow64 a15)) (fun y => dot128 y a2) (fun y => dot128 y a8) (fun y => dot64 y a14) a0 a1 := by
  have n1 : (fun y => normRef (F := Ideal) y a3 a4 a5 a6 a7)
      = fun y => normalized y (asRow128 a3) (asRow128 a4) (asRow128 a5) (asRow128 a6) (asRow128 a7) :=
    funext fun y => normRef_eq y a3 a4 a5 a6 a7
  have n2 : (fun y => normRef (F := Ideal) y a9 a10 a11 a12 a13)
      = fun y => normalized y (asRow128 a9) (asRow128 a10) (asRow128 a11) (asRow128 a12) (asRow128 a13) :=
    funext fun y => normRef_eq y a9 a10 a11 a12 a13
  have b3 : (fun y => biasRef (F := Ideal) y a15) = fun y => biased y (asRow64 a15) :=
    funext fun y => biasRef_eq y a15
  unfold network
  rw [n1, n2, b3]

end Cert.StageBridge

end
-- ==== Proof.lean ====
/-
  A three-layer graph convolution, computed by a program of six grid regions among host operations, against the same
  network computed by host operations alone.

  Both programs first make, from the edge index, the edges' sources, destinations and symmetric weights
  (rsqrt of the degree at both ends), and then three times multiply the features by a weight matrix and pass the result
  along the edges: gather the source's row, scale by the edge's weight, scatter-add into the destination's row. After
  the first two rounds come a bias, a batch normalisation with the folded scale s · rsqrt (v + ε) and the rectifier;
  after the third a bias. The kernel program computes each product and each of those pointwise stages in a region, ten
  row blocks of 10000 rows at a time; everything else is the same host operations in both.

  On the extended reals the rounding of a product's operands to a narrower format is the identity and a product
  accumulated into zero is the plain sum over the contracted coordinate, so each product region leaves the host's
  dot_general of its two arrays; each pointwise region leaves, entry by entry, what the host's chain of broadcasts and
  elementwise operations computes, the row vectors read at the entry's column. The operations between the regions are
  identical, so the two results are one function of the sixteen arguments: no law beyond re-indexing a finite sum is
  used, and the inputs' finiteness is not needed.

  The three frames: the two kernel programs' are the generated ones; the reference's is its run with the result dropped.
  No rewrite was applied in idealizing the kernel, so the preservation claim is trivial.
-/
import proofs.«173730_j47304769798728_1_alg».proof.Defs
import proofs.«173730_j47304769798728_1_alg».proof.Proof.Gen.Kernel
import proofs.«173730_j47304769798728_1_alg».proof.Proof.Gen.Kernel.Skeleton
import proofs.«173730_j47304769798728_1_alg».proof.Proof.Gen.Kernel.Launch
import proofs.«173730_j47304769798728_1_alg».proof.Proof.Gen.Kernel.Points
import proofs.«173730_j47304769798728_1_alg».proof.Proof.Gen.Kernel.Frame
import proofs.«173730_j47304769798728_1_alg».proof.Proof.Gen.KernelIdeal
import proofs.«173730_j47304769798728_1_alg».proof.Proof.Gen.KernelIdeal.Skeleton
import proofs.«173730_j47304769798728_1_alg».proof.Proof.Gen.KernelIdeal.Launch
import proofs.«173730_j47304769798728_1_alg».proof.Proof.Gen.KernelIdeal.Points
import proofs.«173730_j47304769798728_1_alg».proof.Proof.Gen.KernelIdeal.Frame
import proofs.«173730_j47304769798728_1_alg».proof.Proof.Gen.ReferenceIdeal
import proofs.«173730_j47304769798728_1_alg».proof.Proof.Gen.Pre_finite_inputs
import proofs.«173730_j47304769798728_1_alg».proof.Proof.KernelRun
import proofs.«173730_j47304769798728_1_alg».proof.Proof.KernelValue
import proofs.«173730_j47304769798728_1_alg».proof.Proof.RefRun
import proofs.«173730_j47304769798728_1_alg».proof.Proof.RefValue
import proofs.«173730_j47304769798728_1_alg».proof.Proof.StageBridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs run, and the reference's result buffer ends holding what the
    kernel program's does: the reference's term is the composition `network` of its arguments, which stage by stage is
    the composition the kernel's regions and host stretches compute. -/
theorem algebraic : Cert.algebraic_KernelIdeal_ReferenceIdeal := by
  intro m ρ m' ρ' _ hagree
  refine ⟨fun c => Cert.KernelIdeal.Gen.W12 m ρ c (Proc.devRef .tc Cert.KernelIdeal.main_v86),
    Cert.KernelIdeal.Gen.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13, e14, e15⟩ := hagree c
  refine (Cert.Passing.reference_eq m' c).trans ((Cert.StageBridge.network_eq _ _ _ _ _ _ _ _ _ _ _ _ _ _ _ _).trans ?_)
  rw [e0, e1, e2, e3, e4, e5, e6, e7, e8, e9, e10, e11, e12, e13, e14, e15]
  exact (Cert.KernelIdeal.Result.value m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
